-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part6 {F : FTy → Type} [FloatOps F] (main_v98 : IVec S_ 1) (main_v101 : IVec S64 1) (main_c_39 : IVec S_ 1) : IVec S_ 1 :=
  let main_v102 : IVec S_ 1 := (fun x v => Host.reduce IntOp.andi x v reducesTo_S64_S_d0 h_S_) main_v101 main_c_39
  let main_v103 : IVec S_ 1 := andi main_v98 main_v102
  main_v103

def fn_part5 {F : FTy → Type} [FloatOps F] (main_arg19 : FVec F S128 .f32) (main_arg20 : FVec F S64x128 .f32) (main_arg21 : FVec F S64 .f32) (main_v83 : IVec S_ 1) (main_v84 : FVec F S128x128 .f32) (main_cst_32 : FVec F S_ .f32) : IVec S_ 1 :=
  let main_v85 : FVec F S128x128 .f32 := broadcastInDim S128x128 ![] bcast_S_S128x128 main_cst_32
  let main_v86 : IVec S128x128 1 := cmpf .olt main_v84 main_v85
  let main_c_33 : IVec S_ 1 := constantI S_ 1 1#1
  let main_v87 : IVec S_ 1 := (fun x v => Host.reduce IntOp.andi x v reducesTo_S128x128_S_d0_1 h_S_) main_v86 main_c_33
  let main_v88 : IVec S_ 1 := andi main_v83 main_v87
  let main_v89 : FVec F S128 .f32 := Host.absf main_arg19
  let main_cst_34 : FVec F S_ .f32 := constant S_ .f32 0x7F800000#32
  let main_v90 : FVec F S128 .f32 := broadcastInDim S128 ![] bcast_S_S128 main_cst_34
  let main_v91 : IVec S128 1 := cmpf .olt main_v89 main_v90
  let main_c_35 : IVec S_ 1 := constantI S_ 1 1#1
  let main_v92 : IVec S_ 1 := (fun x v => Host.reduce IntOp.andi x v reducesTo_S128_S_d0 h_S_) main_v91 main_c_35
  let main_v93 : IVec S_ 1 := andi main_v88 main_v92
  let main_v94 : FVec F S64x128 .f32 := Host.absf main_arg20
  let main_cst_36 : FVec F S_ .f32 := constant S_ .f32 0x7F800000#32
  let main_v95 : FVec F S64x128 .f32 := broadcastInDim S64x128 ![] bcast_S_S64x128 main_cst_36
  let main_v96 : IVec S64x128 1 := cmpf .olt main_v94 main_v95
  let main_c_37 : IVec S_ 1 := constantI S_ 1 1#1
  let main_v97 : IVec S_ 1 := (fun x v => Host.reduce IntOp.andi x v reducesTo_S64x128_S_d0_1 h_S_) main_v96 main_c_37
  let main_v98 : IVec S_ 1 := andi main_v93 main_v97
  let main_v99 : FVec F S64 .f32 := Host.absf main_arg21
  let main_cst_38 : FVec F S_ .f32 := constant S_ .f32 0x7F800000#32
  let main_v100 : FVec F S64 .f32 := broadcastInDim S64 ![] bcast_S_S64 main_cst_38
  let main_v101 : IVec S64 1 := cmpf .olt main_v99 main_v100
  let main_c_39 : IVec S_ 1 := constantI S_ 1 1#1
  fn_part6 (F := F) main_v98 main_v101 main_c_39

def fn_part4 {F : FTy → Type} [FloatOps F] (main_arg15 : FVec F S128 .f32) (main_arg16 : FVec F S128x128 .f32) (main_arg17 : FVec F S128 .f32) (main_arg18 : FVec F S128x128 .f32) (main_arg19 : FVec F S128 .f32) (main_arg20 : FVec F S64x128 .f32) (main_arg21 : FVec F S64 .f32) (main_v63 : IVec S_ 1) (main_v67 : IVec S_ 1) : IVec S_ 1 :=
  let main_v68 : IVec S_ 1 := andi main_v63 main_v67
  let main_v69 : FVec F S128 .f32 := Host.absf main_arg15
  let main_cst_26 : FVec F S_ .f32 := constant S_ .f32 0x7F800000#32
  let main_v70 : FVec F S128 .f32 := broadcastInDim S128 ![] bcast_S_S128 main_cst_26
  let main_v71 : IVec S128 1 := cmpf .olt main_v69 main_v70
  let main_c_27 : IVec S_ 1 := constantI S_ 1 1#1
  let main_v72 : IVec S_ 1 := (fun x v => Host.reduce IntOp.andi x v reducesTo_S128_S_d0 h_S_) main_v71 main_c_27
  let main_v73 : IVec S_ 1 := andi main_v68 main_v72
  let main_v74 : FVec F S128x128 .f32 := Host.absf main_arg16
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg17
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S128x128 .f32 := Host.absf main_arg18
  let main_cst_32 : FVec F S_ .f32 := constant S_ .f32 0x7F800000#32
  fn_part5 (F := F) main_arg19 main_arg20 main_arg21 main_v83 main_v84 main_cst_32

def fn_part3 {F : FTy → Type} [FloatOps F] (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S64x128 .f32) (main_arg21 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_arg15 main_arg16 main_arg17 main_arg18 main_arg19 main_arg20 main_arg21 main_v63 main_v67

def fn_part2 {F : FTy → Type} [FloatOps F] (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S64x128 .f32) (main_arg21 : FVec F S64 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg9
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x128 .f32 := Host.absf main_arg10
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_arg15 main_arg16 main_arg17 main_arg18 main_arg19 main_arg20 main_arg21 main_v48 main_v49 main_v50

def fn_part1 {F : FTy → Type} [FloatOps F] (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S64x128 .f32) (main_arg21 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg8 main_arg9 main_arg10 main_arg11 main_arg12 main_arg13 main_arg14 main_arg15 main_arg16 main_arg17 main_arg18 main_arg19 main_arg20 main_arg21 main_v33

def fn {F : FTy → Type} [FloatOps F] (main_arg0 : FVec F S50000x128 .f32) (main_arg1 : IVec S2x800000 32) (main_arg2 : FVec F S128x128 .f32) (main_arg3 : FVec F S128 .f32) (main_arg4 : FVec F S128 .f32) (main_arg5 : FVec F S128 .f32) (main_arg6 : FVec F S128 .f32) (main_arg7 : FVec F S128 .f32) (main_arg8 : FVec F S128x128 .f32) (main_arg9 : FVec F S128 .f32) (main_arg10 : FVec F S128x128 .f32) (main_arg11 : FVec F S128 .f32) (main_arg12 : FVec F S128 .f32) (main_arg13 : FVec F S128 .f32) (main_arg14 : FVec F S128 .f32) (main_arg15 : FVec F S128 .f32) (main_arg16 : FVec F S128x128 .f32) (main_arg17 : FVec F S128 .f32) (main_arg18 : FVec F S128x128 .f32) (main_arg19 : FVec F S128 .f32) (main_arg20 : FVec F S64x128 .f32) (main_arg21 : FVec F S64 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_arg15 main_arg16 main_arg17 main_arg18 main_arg19 main_arg20 main_arg21 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S5000x128 : Shape := ⟨2, ![5000, 128]⟩
abbrev S1x128 : Shape := ⟨2, ![1, 128]⟩
abbrev S50000x64 : Shape := ⟨2, ![50000, 64]⟩
abbrev S5000x64 : Shape := ⟨2, ![5000, 64]⟩
abbrev S128x64 : Shape := ⟨2, ![128, 64]⟩
abbrev S1x64 : Shape := ⟨2, ![1, 64]⟩

abbrev nBuf : Space → Nat
  | .hbm => 55
  | .vmem => 36
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128, .f32⟩
  | .hbm, ⟨5, _⟩ => ⟨S128, .f32⟩
  | .hbm, ⟨6, _⟩ => ⟨S128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S128, .f32⟩
  | .hbm, ⟨16, _⟩ => ⟨S128x128, .f32⟩
  | .hbm, ⟨17, _⟩ => ⟨S128, .f32⟩
  | .hbm, ⟨18, _⟩ => ⟨S128x128, .f32⟩
  | .hbm, ⟨19, _⟩ => ⟨S128, .f32⟩
  | .hbm, ⟨20, _⟩ => ⟨S64x128, .f32⟩
  | .hbm, ⟨21, _⟩ => ⟨S64, .f32⟩
  | .hbm, ⟨22, _⟩ => ⟨S1x800000, .i32⟩
  | .hbm, ⟨23, _⟩ => ⟨S800000, .i32⟩
  | .hbm, ⟨24, _⟩ => ⟨S1x800000, .i32⟩
  | .hbm, ⟨25, _⟩ => ⟨S800000, .i32⟩
  | .hbm, ⟨26, _⟩ => ⟨S_, .i32⟩
  | .hbm, ⟨27, _⟩ => ⟨S800000, .i32⟩
  | .hbm, ⟨28, _⟩ => ⟨S800000, .i1⟩
  | .hbm, ⟨29, _⟩ => ⟨S_, .i32⟩
  | .hbm, ⟨30, _⟩ => ⟨S800000, .i32⟩
  | .hbm, ⟨31, _⟩ => ⟨S800000, .i32⟩
  | .hbm, ⟨32, _⟩ => ⟨S800000, .i32⟩
  | .hbm, ⟨33, _⟩ => ⟨S800000x1, .i32⟩
  | .hbm, ⟨34, _⟩ => ⟨S800000x128, .f32⟩
  | .hbm, ⟨35, _⟩ => ⟨S_, .f32⟩
  | .hbm, ⟨36, _⟩ => ⟨S50000x128, .f32⟩
  | .hbm, ⟨37, _⟩ => ⟨S800000x1, .i32⟩
  | .hbm, ⟨38, _⟩ => ⟨S50000x128, .f32⟩
  | .hbm, ⟨39, _⟩ => ⟨S50000x128, .f32⟩
  | .hbm, ⟨40, _⟩ => ⟨S_, .i32⟩
  | .hbm, ⟨41, _⟩ => ⟨S800000, .i32⟩
  | .hbm, ⟨42, _⟩ => ⟨S800000, .i1⟩
  | .hbm, ⟨43, _⟩ => ⟨S_, .i32⟩
  | .hbm, ⟨44, _⟩ => ⟨S800000, .i32⟩
  | .hbm, ⟨45, _⟩ => ⟨S800000, .i32⟩
  | .hbm, ⟨46, _⟩ => ⟨S800000, .i32⟩
  | .hbm, ⟨47, _⟩ => ⟨S800000x1, .i32⟩
  | .hbm, ⟨48, _⟩ => ⟨S800000x128, .f32⟩
  | .hbm, ⟨49, _⟩ => ⟨S_, .f32⟩
  | .hbm, ⟨50, _⟩ => ⟨S50000x128, .f32⟩
  | .hbm, ⟨51, _⟩ => ⟨S800000x1, .i32⟩
  | .hbm, ⟨52, _⟩ => ⟨S50000x128, .f32⟩
  | .hbm, ⟨53, _⟩ => ⟨S50000x128, .f32⟩
  | .hbm, ⟨54, _⟩ => ⟨S50000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S128, .f32⟩
  | .local _ .vmem, ⟨6, _⟩ => ⟨S128, .f32⟩
  | .local _ .vmem, ⟨7, _⟩ => ⟨S128, .f32⟩
  | .local _ .vmem, ⟨8, _⟩ => ⟨S128, .f32⟩
  | .local _ .vmem, ⟨9, _⟩ => ⟨S128, .f32⟩
  | .local _ .vmem, ⟨10, _⟩ => ⟨S128x128, .f32⟩
  | .local _ .vmem, ⟨11, _⟩ => ⟨S128, .f32⟩
  | .local _ .vmem, ⟨12, _⟩ => ⟨S5000x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S128x128, .f32⟩
  | .local _ .vmem, ⟨19, _⟩ => ⟨S128, .f32⟩
  | .local _ .vmem, ⟨20, _⟩ => ⟨S128, .f32⟩
  | .local _ .vmem, ⟨21, _⟩ => ⟨S128, .f32⟩
  | .local _ .vmem, ⟨22, _⟩ => ⟨S128, .f32⟩
  | .local _ .vmem, ⟨23, _⟩ => ⟨S128, .f32⟩
  | .local _ .vmem, ⟨24, _⟩ => ⟨S128x128, .f32⟩
  | .local _ .vmem, ⟨25, _⟩ => ⟨S128, .f32⟩
  | .local _ .vmem, ⟨26, _⟩ => ⟨S5000x128, .f32⟩
  | .local _ .vmem, ⟨27, _⟩ => ⟨S5000x128, .f32⟩
  | .local _ .vmem, ⟨28, _⟩ => ⟨S5000x128, .f32⟩
  | .local _ .vmem, ⟨29, _⟩ => ⟨S5000x128, .f32⟩
  | .local _ .vmem, ⟨30, _⟩ => ⟨S128x128, .f32⟩
  | .local _ .vmem, ⟨31, _⟩ => ⟨S128, .f32⟩
  | .local _ .vmem, ⟨32, _⟩ => ⟨S64x128, .f32⟩
  | .local _ .vmem, ⟨33, _⟩ => ⟨S64, .f32⟩
  | .local _ .vmem, ⟨34, _⟩ => ⟨S5000x64, .f32⟩
  | .local _ .vmem, ⟨35, _⟩ => ⟨S5000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_c_1 : Ref sig .tc := ⟨.hbm, 40, rfl⟩
abbrev main_v15 : Ref sig .tc := ⟨.hbm, 41, rfl⟩
abbrev main_v16 : Ref sig .tc := ⟨.hbm, 42, rfl⟩
abbrev main_c_2 : Ref sig .tc := ⟨.hbm, 43, rfl⟩
abbrev main_v17 : Ref sig .tc := ⟨.hbm, 44, rfl⟩
abbrev main_v18 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_cst_3 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg2_0 : Ref sig .tc := ⟨.vmem, 31, rfl⟩
abbrev cc2_stg3_0 : Ref sig .tc := ⟨.vmem, 32, rfl⟩
abbrev cc2_stg4_0 : Ref sig .tc := ⟨.vmem, 33, rfl⟩
abbrev cc2_stg5_0 : Ref sig .tc := ⟨.vmem, 34, rfl⟩
abbrev cc2_stg5_1 : Ref sig .tc := ⟨.vmem, 35, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem2_0 : DmaSem sig := 31
abbrev cc2_sem3_0 : DmaSem sig := 32
abbrev cc2_sem4_0 : DmaSem sig := 33
abbrev cc2_sem5_0 : DmaSem sig := 34
abbrev cc2_sem5_1 : DmaSem sig := 35

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S5000x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x128 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S128 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S5000x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S64x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  bitsLt_bf16_f32 : FTy.bits .bf16 < FTy.bits .f32
  transposes_S128x128_p1_0_S128x128 : S128x128.Transposes [1, 0] S128x128
  shapeCasts_S128_S1x128 : S128.ShapeCasts S1x128
  broadcasts_S1x128_S5000x128 : S1x128.Broadcasts S5000x128
  inb_S64x128_S64x128_0_0 : ∀ a, (![0, 0] : Fin 2 → Nat) a + S64x128.size a ≤ S64x128.size a
  h_S64x128 : 0 < S64x128.numel
  inb_S64_S64_0 : ∀ a, (![0] : Fin 1 → Nat) a + S64.size a ≤ S64.size a
  h_S64 : 0 < S64.numel
  transposes_S64x128_p1_0_S128x64 : S64x128.Transposes [1, 0] S128x64
  shapeCasts_S64_S1x64 : S64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S50000x128.size a
  hwx0_0 : ∀ i : grid0.Coords, EltTy.bits .f32 = 32 ∨ (Rect.block (s := S50000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S50000x128.size a
  hwx0_1 : ∀ i : grid0.Coords, EltTy.bits .f32 = 32 ∨ (Rect.block (s := S50000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128.size a ≤ S128.size a
  hwx0_4 : ∀ i : grid0.Coords, EltTy.bits .f32 = 32 ∨ (Rect.block (s := S128) S128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S128x128.size a ≤ S128x128.size a
  hwx0_8 : ∀ i : grid0.Coords, EltTy.bits .f32 = 32 ∨ (Rect.block (s := S128x128) S128x128.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S128.size a ≤ S128.size a
  hwx0_9 : ∀ i : grid0.Coords, EltTy.bits .f32 = 32 ∨ (Rect.block (s := S128) S128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S5000x128.size a ≤ S50000x128.size a
  hwx0_10 : ∀ i : grid0.Coords, EltTy.bits .f32 = 32 ∨ (Rect.block (s := S50000x128) S5000x128.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S50000x128.size a
  hwx1_1 : ∀ i : grid1.Coords, EltTy.bits .f32 = 32 ∨ (Rect.block (s := S50000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128.size a ≤ S128.size a
  hwx1_5 : ∀ i : grid1.Coords, EltTy.bits .f32 = 32 ∨ (Rect.block (s := S128) S128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128.size a ≤ S128.size a
  hwx1_6 : ∀ i : grid1.Coords, EltTy.bits .f32 = 32 ∨ (Rect.block (s := S128) S128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128.size a ≤ S128.size a
  hwx1_7 : ∀ i : grid1.Coords, EltTy.bits .f32 = 32 ∨ (Rect.block (s := S128) S128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x128.size a ≤ S128x128.size a
  hwx1_8 : ∀ i : grid1.Coords, EltTy.bits .f32 = 32 ∨ (Rect.block (s := S128x128) S128x128.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S128.size a ≤ S128.size a
  hwx1_9 : ∀ i : grid1.Coords, EltTy.bits .f32 = 32 ∨ (Rect.block (s := S128) S128.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S5000x128.size a ≤ S50000x128.size a
  hwx1_10 : ∀ i : grid1.Coords, EltTy.bits .f32 = 32 ∨ (Rect.block (s := S50000x128) S5000x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S128.size a ≤ S128.size a
  hwx2_2 : ∀ i : grid2.Coords, EltTy.bits .f32 = 32 ∨ (Rect.block (s := S128) S128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S64x128.size a ≤ S64x128.size a
  hwx2_3 : ∀ i : grid2.Coords, EltTy.bits .f32 = 32 ∨ (Rect.block (s := S64x128) S64x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64.size a ≤ S64.size a
  hwx2_4 : ∀ i : grid2.Coords, EltTy.bits .f32 = 32 ∨ (Rect.block (s := S64) S64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S50000x64.size a
  hwx2_5 : ∀ i : grid2.Coords, EltTy.bits .f32 = 32 ∨ (Rect.block (s := S50000x64) S5000x64.size (cc2_transform_5 i) (hinb2_5 i)).WholeWords (EltTy.packing .f32)

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S128x128.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg9) S128.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v14) S5000x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v14) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v24) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg10) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg11) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg12) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg13) S128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg14) S128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg15) S128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg16) S128x128.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_arg17) S128.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v25) S5000x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v25) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg18) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg19) S128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg20) S64x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg21) S64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v26) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 131
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128, .f32⟩
  | 5 => ⟨S128, .f32⟩
  | 6 => ⟨S128, .f32⟩
  | 7 => ⟨S128, .f32⟩
  | 8 => ⟨S128x128, .f32⟩
  | 9 => ⟨S128, .f32⟩
  | 10 => ⟨S128x128, .f32⟩
  | 11 => ⟨S128, .f32⟩
  | 12 => ⟨S128, .f32⟩
  | 13 => ⟨S128, .f32⟩
  | 14 => ⟨S128, .f32⟩
  | 15 => ⟨S128, .f32⟩
  | 16 => ⟨S128x128, .f32⟩
  | 17 => ⟨S128, .f32⟩
  | 18 => ⟨S128x128, .f32⟩
  | 19 => ⟨S128, .f32⟩
  | 20 => ⟨S64x128, .f32⟩
  | 21 => ⟨S64, .f32⟩
  | 22 => ⟨S1x800000, .i32⟩
  | 23 => ⟨S800000, .i32⟩
  | 24 => ⟨S1x800000, .i32⟩
  | 25 => ⟨S800000, .i32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000x128, .f32⟩
  | 35 => ⟨S_, .f32⟩
  | 36 => ⟨S50000x128, .f32⟩
  | 37 => ⟨S800000x1, .i32⟩
  | 38 => ⟨S50000x128, .f32⟩
  | 39 => ⟨S50000x128, .f32⟩
  | 40 => ⟨S128x128, .f32⟩
  | 41 => ⟨S50000x128, .f32⟩
  | 42 => ⟨S1x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S128, .f32⟩
  | 50 => ⟨S128, .f32⟩
  | 51 => ⟨S128, .f32⟩
  | 52 => ⟨S1x128, .f32⟩
  | 53 => ⟨S50000x128, .f32⟩
  | 54 => ⟨S50000x128, .f32⟩
  | 55 => ⟨S1x128, .f32⟩
  | 56 => ⟨S50000x128, .f32⟩
  | 57 => ⟨S50000x128, .f32⟩
  | 58 => ⟨S1x128, .f32⟩
  | 59 => ⟨S50000x128, .f32⟩
  | 60 => ⟨S50000x128, .f32⟩
  | 61 => ⟨S_, .f32⟩
  | 62 => ⟨S50000x128, .f32⟩
  | 63 => ⟨S50000x128, .f32⟩
  | 64 => ⟨S128x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S_, .i32⟩
  | 73 => ⟨S800000, .i32⟩
  | 74 => ⟨S800000, .i1⟩
  | 75 => ⟨S_, .i32⟩
  | 76 => ⟨S800000, .i32⟩
  | 77 => ⟨S800000, .i32⟩
  | 78 => ⟨S800000, .i32⟩
  | 79 => ⟨S800000x1, .i32⟩
  | 80 => ⟨S800000x128, .f32⟩
  | 81 => ⟨S_, .f32⟩
  | 82 => ⟨S50000x128, .f32⟩
  | 83 => ⟨S800000x1, .i32⟩
  | 84 => ⟨S50000x128, .f32⟩
  | 85 => ⟨S50000x128, .f32⟩
  | 86 => ⟨S128x128, .f32⟩
  | 87 => ⟨S50000x128, .f32⟩
  | 88 => ⟨S1x128, .f32⟩
  | 89 => ⟨S50000x128, .f32⟩
  | 90 => ⟨S50000x128, .f32⟩
  | 91 => ⟨S1x128, .f32⟩
  | 92 => ⟨S50000x128, .f32⟩
  | 93 => ⟨S50000x128, .f32⟩
  | 94 => ⟨S_, .f32⟩
  | 95 => ⟨S128, .f32⟩
  | 96 => ⟨S128, .f32⟩
  | 97 => ⟨S128, .f32⟩
  | 98 => ⟨S1x128, .f32⟩
  | 99 => ⟨S50000x128, .f32⟩
  | 100 => ⟨S50000x128, .f32⟩
  | 101 => ⟨S1x128, .f32⟩
  | 102 => ⟨S50000x128, .f32⟩
  | 103 => ⟨S50000x128, .f32⟩
  | 104 => ⟨S1x128, .f32⟩
  | 105 => ⟨S50000x128, .f32⟩
  | 106 => ⟨S50000x128, .f32⟩
  | 107 => ⟨S_, .f32⟩
  | 108 => ⟨S50000x128, .f32⟩
  | 109 => ⟨S50000x128, .f32⟩
  | 110 => ⟨S128x128, .f32⟩
  | 111 => ⟨S50000x128, .f32⟩
  | 112 => ⟨S1x128, .f32⟩
  | 113 => ⟨S50000x128, .f32⟩
  | 114 => ⟨S50000x128, .f32⟩
  | 115 => ⟨S_, .f32⟩
  | 116 => ⟨S50000x128, .f32⟩
  | 117 => ⟨S50000x128, .f32⟩
  | 118 => ⟨S128x128, .f32⟩
  | 119 => ⟨S50000x128, .f32⟩
  | 120 => ⟨S1x128, .f32⟩
  | 121 => ⟨S50000x128, .f32⟩
  | 122 => ⟨S50000x128, .f32⟩
  | 123 => ⟨S_, .f32⟩
  | 124 => ⟨S50000x128, .f32⟩
  | 125 => ⟨S50000x128, .f32⟩
  | 126 => ⟨S128x64, .f32⟩
  | 127 => ⟨S50000x64, .f32⟩
  | _ => ⟨S50000x128, .f32⟩

abbrev hbmTy0_1 (i : Nat) : BufTy := match i % 128 with
  | 0 => ⟨S1x64, .f32⟩
  | 1 => ⟨S50000x64, .f32⟩
  | 2 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_c : Ref sig .tc := ⟨.hbm, 26, rfl⟩
abbrev main_v4 : Ref sig .tc := ⟨.hbm, 27, rfl⟩
abbrev main_v5 : Ref sig .tc := ⟨.hbm, 28, rfl⟩
abbrev main_c_0 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_1 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_v31 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_call0_cst : Ref sig .tc := ⟨.hbm, 61, rfl⟩
abbrev main_call0_v0 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_call1_cst : Ref sig .tc := ⟨.hbm, 69, rfl⟩
abbrev main_call1_v0 : Ref sig .tc := ⟨.hbm, 70, rfl⟩
abbrev main_v41 : Ref sig .tc := ⟨.hbm, 71, rfl⟩
abbrev main_c_2 : Ref sig .tc := ⟨.hbm, 72, rfl⟩
abbrev main_v42 : Ref sig .tc := ⟨.hbm, 73, rfl⟩
abbrev main_v43 : Ref sig .tc := ⟨.hbm, 74, rfl⟩
abbrev main_c_3 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_cst_4 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_cst_5 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_call2_cst : Ref sig .tc := ⟨.hbm, 107, rfl⟩
abbrev main_call2_v0 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_call3_cst : Ref sig .tc := ⟨.hbm, 115, rfl⟩
abbrev main_call3_v0 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_call4_cst : Ref sig .tc := ⟨.hbm, 123, rfl⟩
abbrev main_call4_v0 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S_S128 : S_.BroadcastsInDim S128 (![] : Fin 0 → Fin S128.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The idealized kernel's run with its last memory named.

  @main is five segments: the host operations that build the first neighbour sum, the first layer's grid, the host
  operations that build the second neighbour sum, the second layer's grid, and the head's grid. Every weakly fair
  execution terminates without a fault, and when it does every buffer that lives across the whole program holds what
  the last segment boundary says it holds: the fold of the host operations' results and of each grid's write-backs
  through the program. The result array is one of those buffers, so this is the statement the value proof reads.
-/
import proofs.«129006_j75204877353218_1_alg».proof.Proof.Gen.KernelIdeal.Frame

set_option maxRecDepth 16384

noncomputable section

namespace Cert.KernelRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with every program-long buffer of every core at
    the contents of the last segment boundary. -/
theorem run_last : θ_run defs (onTc (τ := τ) (main (F := F))) ⟨m, fun _ => 0, ρ⟩ (fun r => ∀ c : Dev nD,
      ∀ b ∈ Pipeline.ucRefs τ sig, r.2.mem (((c : Thread nD τ)).1, b) = W5 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h => h)

end Cert.KernelRun

end
-- ==== Proof.Rows.lean ====
/-
  One layer of the network, and its dense head, written one node at a time.

  Every operation after the neighbour sum acts on a single node's feature row: the row `h` (the node's own features
  plus the sum over its incoming edges) goes through a dense layer `h ↦ h · Wᵀ + b`, the batch-norm affine map with the
  running statistics `((· - mean) · (var + ε)^(-1/2)) · γ + β`, a rectifier, a second dense layer and a second rectifier.
  The head is two dense layers with a rectifier between them. Entry `j` of a dense layer is the inner product of the row
  with row `j` of the weight matrix (the weights are stored output-major, so no transposed copy appears here), plus
  `b j`. All of it is over the extended reals, where a sum over `Fin 128` is the plain finite sum.

  `Conv` and `Head` are the same maps applied to every row of a 50000-row array.
-/
import Idealize.ShloMosaic.PureOps.Ideal
import Idealize.ShloMosaic.Lib.ValueIdx

noncomputable section

namespace Cert.Rows

open Idealize.ShloMosaic Idealize.ShloMosaic.ValueIdx

/-- Indices of a two-axis array of the given extents. -/
abbrev I2 (a b : Nat) : Type := (⟨2, ![a, b]⟩ : Shape).Idx
/-- Indices of a one-axis array of the given extent. -/
abbrev I1 (a : Nat) : Type := (⟨1, ![a]⟩ : Shape).Idx

/-- The rectifier's floor, the single-precision zero word. -/
abbrev floor0 : EReal := Ideal.ofBits .f32 0x00000000#32
/-- The variance offset of the normalisation, the single-precision word both programs carry. -/
abbrev varEps : EReal := Ideal.ofBits .f32 0x3727C5AC#32

/-- A dense layer on one row: entry `j` is `∑ₖ h k · w (j, k) + b j`. -/
def dense {n : Nat} (h : Fin 128 → EReal) (w : I2 n 128 → EReal) (b : I1 n → EReal) (j : Fin n) : EReal :=
  (∑ k : Fin 128, h k * w (ix2 j k)) + b (ix1 j)

/-- The normalised, rectified first half of a layer at feature `k`:
    `max (((dense h wa ba k - rm k) · (rv k + ε)^(-1/2)) · g k + be k) 0`. -/
def mid (h : Fin 128 → EReal) (wa : I2 128 128 → EReal) (ba g be rm rv : I1 128 → EReal) (k : Fin 128) : EReal :=
  max ((dense h wa ba k - rm (ix1 k)) * Ideal.rsqrt (rv (ix1 k) + varEps) * g (ix1 k) + be (ix1 k)) floor0

/-- One layer on one row `h`: dense, normalise, rectify, dense, rectify. -/
def convRow (h : Fin 128 → EReal) (wa : I2 128 128 → EReal) (ba g be rm rv : I1 128 → EReal)
    (wb : I2 128 128 → EReal) (bb : I1 128 → EReal) (q : Fin 128) : EReal :=
  max (dense (mid h wa ba g be rm rv) wb bb q) floor0

/-- The head on one row: dense, rectify, dense into 64 features. -/
def headRow (h : Fin 128 → EReal) (w1 : I2 128 128 → EReal) (b1 : I1 128 → EReal)
    (w2 : I2 64 128 → EReal) (b2 : I1 64 → EReal) (q : Fin 64) : EReal :=
  dense (fun k => max (dense h w1 b1 k) floor0) w2 b2 q

/-- One layer on the whole array: row `r` of the result is `convRow` of row `r` of `x + agg`. -/
def Conv (x agg : I2 50000 128 → EReal) (wa : I2 128 128 → EReal) (ba g be rm rv : I1 128 → EReal)
    (wb : I2 128 128 → EReal) (bb : I1 128 → EReal) : I2 50000 128 → EReal :=
  fun i => convRow (fun k => x (ix2 (i 0) k) + agg (ix2 (i 0) k)) wa ba g be rm rv wb bb (i 1)

/-- The head on the whole array, row by row. -/
def Head (x : I2 50000 128 → EReal) (w1 : I2 128 128 → EReal) (b1 : I1 128 → EReal)
    (w2 : I2 64 128 → EReal) (b2 : I1 64 → EReal) : I2 50000 64 → EReal :=
  fun i => headRow (fun k => x (ix2 (i 0) k)) w1 b1 w2 b2 (i 1)

theorem Conv_apply (x agg : I2 50000 128 → EReal) (wa : I2 128 128 → EReal) (ba g be rm rv : I1 128 → EReal)
    (wb : I2 128 128 → EReal) (bb : I1 128 → EReal) (r : Fin 50000) (q : Fin 128) :
    Conv x agg wa ba g be rm rv wb bb (ix2 r q)
      = convRow (fun k => x (ix2 r k) + agg (ix2 r k)) wa ba g be rm rv wb bb q := rfl

theorem Head_apply (x : I2 50000 128 → EReal) (w1 : I2 128 128 → EReal) (b1 : I1 128 → EReal)
    (w2 : I2 64 128 → EReal) (b2 : I1 64 → EReal) (r : Fin 50000) (q : Fin 64) :
    Head x w1 b1 w2 b2 (ix2 r q) = headRow (fun k => x (ix2 r k)) w1 b1 w2 b2 q := rfl

end Cert.Rows

end
-- ==== Proof.KernelRows.lean ====
/-
  The three kernel bodies read at one entry of their output block.

  A block is 5000 consecutive node rows. Entry (p, q) of what a body stores depends on row p of its row-blocked
  operands and on the whole weight and bias operands: the matrix unit's product into a zero accumulator is the plain
  sum over the 128 contracted features, the transposed weight read at (k, q) is the weight at (q, k), a vector
  reshaped to one row and repeated down the block reads at (p, q) as the vector at q, and a change of float format is
  the identity on the extended reals. With those four facts the first two bodies are `convRow` of the row
  `x p · + agg p ·` and the third is `headRow` of the row `x p ·`.
-/
import proofs.«129006_j75204877353218_1_alg».proof.Proof.Gen.KernelIdeal.Skeleton
import proofs.«129006_j75204877353218_1_alg».proof.Proof.Rows
import Idealize.ShloMosaic.Lib.ValueIdx
import Idealize.ShloMosaic.Lib.ValueLayout
import Idealize.ShloMosaic.Lib.Pipeline.Value
import Idealize.ShloMosaic.PureOps.Ideal.Laws

noncomputable section

namespace Cert.KernelRows

open Cert.KernelIdeal Cert.KernelIdeal.Gen Cert.Rows Idealize.ShloMosaic Idealize.ShloMosaic.ValueIdx

/-- The contraction of a 5000×128 block with a 128×128 matrix. -/
abbrev D128 : DotDims S5000x128 S128x128 S5000x128 := dot_S5000x128_S128x128_S5000x128_1_0_0_1_n_n
/-- The contraction of a 5000×128 block with a 128×64 matrix. -/
abbrev D64 : DotDims S5000x128 S128x64 S5000x64 := dot_S5000x128_S128x64_S5000x64_1_0_0_1_n_n

/-! ## The matrix product at an entry -/

theorem D128_lhs0 (i : S5000x128.Idx) (c : D128.contr.Idx) : (D128.lhsIdx i c 0).val = (i 0).val := by
  unfold DotDims.lhsIdx
  rw [dif_neg (show ¬(0 : Fin S5000x128.rank) ∈ D128.lhsBatch by decide), dif_pos (show (0 : Fin S5000x128.rank) ∈ D128.lhsNonContracting by decide)]
  rfl
theorem D128_rhs1 (i : S5000x128.Idx) (c : D128.contr.Idx) : (D128.rhsIdx i c 1).val = (i 1).val := by
  unfold DotDims.rhsIdx
  rw [dif_neg (show ¬(1 : Fin S128x128.rank) ∈ D128.rhsBatch by decide), dif_pos (show (1 : Fin S128x128.rank) ∈ D128.rhsNonContracting by decide)]
  rfl
theorem D64_lhs0 (i : S5000x64.Idx) (c : D64.contr.Idx) : (D64.lhsIdx i c 0).val = (i 0).val := by
  unfold DotDims.lhsIdx
  rw [dif_neg (show ¬(0 : Fin S5000x128.rank) ∈ D64.lhsBatch by decide), dif_pos (show (0 : Fin S5000x128.rank) ∈ D64.lhsNonContracting by decide)]
  rfl
theorem D64_rhs1 (i : S5000x64.Idx) (c : D64.contr.Idx) : (D64.rhsIdx i c 1).val = (i 1).val := by
  unfold DotDims.rhsIdx
  rw [dif_neg (show ¬(1 : Fin S128x64.rank) ∈ D64.rhsBatch by decide), dif_pos (show (1 : Fin S128x64.rank) ∈ D64.rhsNonContracting by decide)]
  rfl

/-- Into a zero accumulator, entry (p, q) of the product of a block with a 128×128 matrix is `∑ₖ l (p, k) · r (k, q)`. -/
theorem matmul128_apply {φ₁ φ₂ : FTy} (l : FVec Ideal S5000x128 φ₁) (r : FVec Ideal S128x128 φ₂) (p : Fin 5000) (q : Fin 128) :
    matmul D128 none l r (constant (F := Ideal) S5000x128 .f32 0x00000000#32) (ix2 p q)
      = ∑ k : Fin 128, l (ix2 p k) * r (ix2 k q) := by
  simp only [matmul]
  rw [Ideal.matmul_constant_zero_apply, ← Equiv.sum_comp (contrEquiv1 D128 128 rfl rfl).symm]
  refine Finset.sum_congr rfl fun k _ => ?_
  have hk := contrEquiv1_symm_val D128 128 rfl rfl k
  have el : D128.lhsIdx (ix2 p q) ((contrEquiv1 D128 128 rfl rfl).symm k) = ix2 p k := funext fun a => Fin.ext (by
    match a with
    | ⟨0, _⟩ => exact D128_lhs0 _ _
    | ⟨1, _⟩ => exact (D128.lhsIdx_val_of_single rfl _ _).trans hk)
  have er : D128.rhsIdx (ix2 p q) ((contrEquiv1 D128 128 rfl rfl).symm k) = ix2 k q := funext fun a => Fin.ext (by
    match a with
    | ⟨0, _⟩ => exact (D128.rhsIdx_val_of_single rfl _ _).trans hk
    | ⟨1, _⟩ => exact D128_rhs1 _ _)
  rw [el, er]

/-- The same for a 128×64 matrix. -/
theorem matmul64_apply {φ₁ φ₂ : FTy} (l : FVec Ideal S5000x128 φ₁) (r : FVec Ideal S128x64 φ₂) (p : Fin 5000) (q : Fin 64) :
    matmul D64 none l r (constant (F := Ideal) S5000x64 .f32 0x00000000#32) (ix2 p q)
      = ∑ k : Fin 128, l (ix2 p k) * r (ix2 k q) := by
  simp only [matmul]
  rw [Ideal.matmul_constant_zero_apply, ← Equiv.sum_comp (contrEquiv1 D64 128 rfl rfl).symm]
  refine Finset.sum_congr rfl fun k _ => ?_
  have hk := contrEquiv1_symm_val D64 128 rfl rfl k
  have el : D64.lhsIdx (ix2 p q) ((contrEquiv1 D64 128 rfl rfl).symm k) = ix2 p k := funext fun a => Fin.ext (by
    match a with
    | ⟨0, _⟩ => exact D64_lhs0 _ _
    | ⟨1, _⟩ => exact (D64.lhsIdx_val_of_single rfl _ _).trans hk)
  have er : D64.rhsIdx (ix2 p q) ((contrEquiv1 D64 128 rfl rfl).symm k) = ix2 k q := funext fun a => Fin.ext (by
    match a with
    | ⟨0, _⟩ => exact (D64.rhsIdx_val_of_single rfl _ _).trans hk
    | ⟨1, _⟩ => exact D64_rhs1 _ _)
  rw [el, er]

/-! ## A vector laid along every row of a block -/

/-- A 128-vector reshaped to one row and repeated down a 5000-row block reads at (p, q) as the vector at q. -/
theorem rows128 (v : FVec Ideal S128 .f32) (p : Fin 5000) (q : Fin 128) :
    broadcastTo S5000x128 (shapeCast S1x128 v shapeCasts_S128_S1x128) broadcasts_S1x128_S5000x128 (ix2 p q) = v (ix1 q) := by
  rw [broadcastTo_1b_ab_apply, shapeCast_a_1a_apply]

/-- The same for a 64-vector. -/
theorem rows64 (v : FVec Ideal S64 .f32) (p : Fin 5000) (q : Fin 64) :
    broadcastTo S5000x64 (shapeCast S1x64 v shapeCasts_S64_S1x64) broadcasts_S1x64_S5000x64 (ix2 p q) = v (ix1 q) := by
  rw [broadcastTo_1b_ab_apply, shapeCast_a_1a_apply]

/-! ## A dense layer inside a body -/

/-- A block times the transposed 128×128 weight, plus the bias along the rows, at (p, q), is `dense` of row p. -/
theorem dense128_apply (x : FVec Ideal S5000x128 .f32) (w : FVec Ideal S128x128 .f32) (b : FVec Ideal S128 .f32) (p : Fin 5000) (q : Fin 128) :
    addf (matmul D128 none (truncf .bf16 x bitsLt_bf16_f32) (truncf .bf16 (transpose S128x128 [1, 0] w transposes_S128x128_p1_0_S128x128) bitsLt_bf16_f32)
        (constant (F := Ideal) S5000x128 .f32 0x00000000#32))
      (broadcastTo S5000x128 (shapeCast S1x128 b shapeCasts_S128_S1x128) broadcasts_S1x128_S5000x128) (ix2 p q)
      = dense (fun k => x (ix2 p k)) w b q := by
  rw [addf_apply, matmul128_apply, rows128]
  unfold dense
  refine congrArg (· + b (ix1 q)) (Finset.sum_congr rfl fun k _ => ?_)
  rw [truncf_apply, truncf_apply, transpose_ix2_apply]

/-- A block times the transposed 64×128 weight, plus the bias along the rows, at (p, q), is `dense` of row p. -/
theorem dense64_apply (x : FVec Ideal S5000x128 .f32) (w : FVec Ideal S64x128 .f32) (b : FVec Ideal S64 .f32) (p : Fin 5000) (q : Fin 64) :
    addf (matmul D64 none (truncf .bf16 x bitsLt_bf16_f32) (truncf .bf16 (transpose S128x64 [1, 0] w transposes_S64x128_p1_0_S128x64) bitsLt_bf16_f32)
        (constant (F := Ideal) S5000x64 .f32 0x00000000#32))
      (broadcastTo S5000x64 (shapeCast S1x64 b shapeCasts_S64_S1x64) broadcasts_S1x64_S5000x64) (ix2 p q)
      = dense (fun k => x (ix2 p k)) w b q := by
  rw [addf_apply, matmul64_apply, rows64]
  unfold dense
  refine congrArg (· + b (ix1 q)) (Finset.sum_congr rfl fun k _ => ?_)
  rw [truncf_apply, truncf_apply, transpose_ix2_apply]

/-! ## The bodies at an entry -/

/-- The first half of a layer at (p, k): the dense layer of row p, the running mean subtracted, scaled by the inverse
    square root of the offset variance and by the gain, the shift added, floored at zero. -/
theorem mid_apply (h : FVec Ideal S5000x128 .f32) (wa : FVec Ideal S128x128 .f32) (ba g be rm rv : FVec Ideal S128 .f32)
    (p : Fin 5000) (k : Fin 128) :
    maximumf
      (addf
        (mulf
          (mulf
            (subf
              (addf (matmul D128 none (truncf .bf16 h bitsLt_bf16_f32) (truncf .bf16 (transpose S128x128 [1, 0] wa transposes_S128x128_p1_0_S128x128) bitsLt_bf16_f32)
                  (constant (F := Ideal) S5000x128 .f32 0x00000000#32))
                (broadcastTo S5000x128 (shapeCast S1x128 ba shapeCasts_S128_S1x128) broadcasts_S1x128_S5000x128))
              (broadcastTo S5000x128 (shapeCast S1x128 rm shapeCasts_S128_S1x128) broadcasts_S1x128_S5000x128))
            (broadcastTo S5000x128 (shapeCast S1x128 (rsqrt (addf rv (broadcast S128 (Scalar.ofBits (F := Ideal) .f32 0x3727C5AC#32)))) shapeCasts_S128_S1x128) broadcasts_S1x128_S5000x128))
          (broadcastTo S5000x128 (shapeCast S1x128 g shapeCasts_S128_S1x128) broadcasts_S1x128_S5000x128))
        (broadcastTo S5000x128 (shapeCast S1x128 be shapeCasts_S128_S1x128) broadcasts_S1x128_S5000x128))
      (broadcast S5000x128 (Scalar.ofBits (F := Ideal) .f32 0x00000000#32)) (ix2 p k)
    = mid (fun l => h (ix2 p l)) wa ba g be rm rv k := by
  rw [maximumf_apply, addf_apply, mulf_apply, mulf_apply, subf_apply, dense128_apply, rows128 rm, rows128 g, rows128 be, rows128]
  rfl

/-- The first layer's body at (p, q) is `convRow` of row p of `x + agg`. -/
theorem body0_apply (v0 v1 : Vec Ideal S5000x128 .f32) (v4 : Vec Ideal S128x128 .f32) (v5 v13 v14 v15 v16 : Vec Ideal S128 .f32)
    (v34 : Vec Ideal S128x128 .f32) (v35 : Vec Ideal S128 .f32) (p : Fin 5000) (q : Fin 128) :
    k0_pay1 (k0_pay2 v0 v1 v4 v5 v13 v14 v15 v16 v34) (k0_pay3 v35) (ix2 p q)
      = convRow (fun k => v0 (ix2 p k) + v1 (ix2 p k)) v4 v5 v13 v14 v15 v16 v34 v35 q := by
  unfold k0_pay1 k0_pay2 k0_pay3
  dsimp only
  rw [shapeCast_self, maximumf_apply, dense128_apply]
  unfold convRow
  refine congrArg₂ max (congrArg (fun f => dense f v34 v35 q) (funext fun k => ?_)) rfl
  exact mid_apply (addf v0 v1) v4 v5 v13 v14 v15 v16 p k

/-- The second layer's body is the first layer's text up to reshapes of a block to its own shape. -/
theorem body1_eq (v0 v2 : Vec Ideal S5000x128 .f32) (v5 : Vec Ideal S128x128 .f32) (v6 v14 v15 v16 v17 : Vec Ideal S128 .f32)
    (v35 : Vec Ideal S128x128 .f32) (v36 : Vec Ideal S128 .f32) :
    k1_pay1 v36 (k1_pay2 v0 v2 v5 v6 v14 v15 v16 v17 v35) = k0_pay1 (k0_pay2 v0 v2 v5 v6 v14 v15 v16 v17 v35) (k0_pay3 v36) := by
  unfold k1_pay1 k1_pay2 k0_pay1 k0_pay2 k0_pay3
  dsimp only
  simp only [shapeCast_self]

/-- The second layer's body at (p, q) is `convRow` of row p of `x + agg`. -/
theorem body1_apply (v0 v2 : Vec Ideal S5000x128 .f32) (v5 : Vec Ideal S128x128 .f32) (v6 v14 v15 v16 v17 : Vec Ideal S128 .f32)
    (v35 : Vec Ideal S128x128 .f32) (v36 : Vec Ideal S128 .f32) (p : Fin 5000) (q : Fin 128) :
    k1_pay1 v36 (k1_pay2 v0 v2 v5 v6 v14 v15 v16 v17 v35) (ix2 p q)
      = convRow (fun k => v0 (ix2 p k) + v2 (ix2 p k)) v5 v6 v14 v15 v16 v17 v35 v36 q := by
  rw [body1_eq]
  exact body0_apply v0 v2 v5 v6 v14 v15 v16 v17 v35 v36 p q

/-- The head's body at (p, q) is `headRow` of row p. -/
theorem body2_apply (v0 : Vec Ideal S5000x128 .f32) (v2 : Vec Ideal S128x128 .f32) (v3 : Vec Ideal S128 .f32)
    (v13 : Vec Ideal S64x128 .f32) (v14 : Vec Ideal S64 .f32) (p : Fin 5000) (q : Fin 64) :
    k2_pay1 v0 v2 v3 v13 v14 (ix2 p q) = headRow (fun k => v0 (ix2 p k)) v2 v3 v13 v14 q := by
  unfold k2_pay1
  dsimp only
  rw [shapeCast_self, dense64_apply]
  unfold headRow
  refine congrArg (fun f => dense f v13 v14 q) (funext fun k => ?_)
  rw [maximumf_apply, dense128_apply]
  rfl

end Cert.KernelRows

end
-- ==== Proof.KernelBlocks.lean ====
/-
  From the blocks a grid writes back to the array it leaves.

  Each of the three grids has ten points; point `t` stages rows `5000 t … 5000 t + 4999` of its row-blocked operands and
  every weight and bias whole, runs the body, and writes the result block back to the same rows of the result array. So
  the block a point writes back is the rows `5000 t …` of one whole-array function of the arrays the grid is entered
  with — `Conv` for the two layers, `Head` for the head —, the ten blocks tile the result, and after the grid the result
  array is that function. Everything here is stated at arbitrary entry contents `V`.
-/
import proofs.«129006_j75204877353218_1_alg».proof.Proof.Gen.KernelIdeal.Frame
import proofs.«129006_j75204877353218_1_alg».proof.Proof.KernelRows
import Idealize.ShloMosaic.Lib.Pipeline.Value

set_option maxRecDepth 16384

noncomputable section

namespace Cert.KernelBlocks

open Cert.KernelIdeal Cert.KernelIdeal.Gen Cert.Rows Cert.KernelRows
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a; rfl

/-! ## The first layer's grid (ten points of 5000 rows) -/

/-- Where each operand's block sits at point `t`: the row-blocked operands and the result at block row `t`, every weight and
    bias at its one block. Decided over the ten points. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 1) = 0
    ∧ win0_4.index t (0 : Fin 1) = 0
    ∧ win0_5.index t (0 : Fin 1) = 0
    ∧ win0_6.index t (0 : Fin 1) = 0
    ∧ win0_7.index t (0 : Fin 1) = 0
    ∧ win0_8.index t (0 : Fin 2) = 0
    ∧ win0_8.index t (1 : Fin 2) = 0
    ∧ win0_9.index t (0 : Fin 1) = 0
    ∧ win0_10.index t (0 : Fin 2) = t.val
    ∧ win0_10.index t (1 : Fin 2) = 0 :=
  (by decide +kernel : ∀ t : Fin grid0.N, _)

/-- Row `p` of operand 0's block at point `t` is row `5000 t + p` of its array. -/
theorem rows0_0 (c : Dev nD) (t : Fin cfg0.N) (p : Fin 5000) (k : Fin 128) (row : Fin 50000) (hrow : row.val = 5000 * t.val + p.val) :
    (iblk0 V c 0 t : Vec Ideal S5000x128 .f32) (ix2 p k) = (V c main_arg0 : S50000x128.Idx → EReal) (ix2 row k) := by
  obtain ⟨i0a, i0b, i1a, i1b, i2a, i2b, i3a, i4a, i5a, i6a, i7a, i8a, i8b, i9a, oa, ob⟩ := idx0 t
  unfold iblk0
  rw [View.read_apply]
  show V c main_arg0 _ = V c main_arg0 _
  congr 1
  funext a
  apply Fin.ext
  match a with
  | ⟨0, _⟩ => show win0_0.index t 0 * 5000 + 1 * p.val = row.val; rw [i0a, hrow]; omega
  | ⟨1, _⟩ => show win0_0.index t 1 * 128 + 1 * k.val = k.val; rw [i0b]; omega

/-- Row `p` of operand 1's block at point `t` is row `5000 t + p` of its array. -/
theorem rows0_1 (c : Dev nD) (t : Fin cfg0.N) (p : Fin 5000) (k : Fin 128) (row : Fin 50000) (hrow : row.val = 5000 * t.val + p.val) :
    (iblk0 V c 1 t : Vec Ideal S5000x128 .f32) (ix2 p k) = (V c main_v13 : S50000x128.Idx → EReal) (ix2 row k) := by
  obtain ⟨i0a, i0b, i1a, i1b, i2a, i2b, i3a, i4a, i5a, i6a, i7a, i8a, i8b, i9a, oa, ob⟩ := idx0 t
  unfold iblk0
  rw [View.read_apply]
  show V c main_v13 _ = V c main_v13 _
  congr 1
  funext a
  apply Fin.ext
  match a with
  | ⟨0, _⟩ => show win0_1.index t 0 * 5000 + 1 * p.val = row.val; rw [i1a, hrow]; omega
  | ⟨1, _⟩ => show win0_1.index t 1 * 128 + 1 * k.val = k.val; rw [i1b]; omega

/-- Operand 2's one block is its whole array. -/
theorem whole0_2 (c : Dev nD) (t : Fin cfg0.N) : (iblk0 V c 2 t : Vec Ideal S128x128 .f32) = V c main_arg2 := by
  obtain ⟨i0a, i0b, i1a, i1b, i2a, i2b, i3a, i4a, i5a, i6a, i7a, i8a, i8b, i9a, oa, ob⟩ := idx0 t
  funext y
  unfold iblk0
  rw [View.read_apply]
  show V c main_arg2 _ = V c main_arg2 y
  congr 1
  funext a
  apply Fin.ext
  match a with
  | ⟨0, _⟩ => show win0_2.index t 0 * 128 + 1 * (y 0).val = (y 0).val; rw [i2a]; omega
  | ⟨1, _⟩ => show win0_2.index t 1 * 128 + 1 * (y 1).val = (y 1).val; rw [i2b]; omega

/-- Operand 3's one block is its whole array. -/
theorem whole0_3 (c : Dev nD) (t : Fin cfg0.N) : (iblk0 V c 3 t : Vec Ideal S128 .f32) = V c main_arg3 := by
  obtain ⟨i0a, i0b, i1a, i1b, i2a, i2b, i3a, i4a, i5a, i6a, i7a, i8a, i8b, i9a, oa, ob⟩ := idx0 t
  funext y
  unfold iblk0
  rw [View.read_apply]
  show V c main_arg3 _ = V c main_arg3 y
  congr 1
  funext a
  apply Fin.ext
  match a with
  | ⟨0, _⟩ => show win0_3.index t 0 * 128 + 1 * (y 0).val = (y 0).val; rw [i3a]; omega

/-- Operand 4's one block is its whole array. -/
theorem whole0_4 (c : Dev nD) (t : Fin cfg0.N) : (iblk0 V c 4 t : Vec Ideal S128 .f32) = V c main_arg4 := by
  obtain ⟨i0a, i0b, i1a, i1b, i2a, i2b, i3a, i4a, i5a, i6a, i7a, i8a, i8b, i9a, oa, ob⟩ := idx0 t
  funext y
  unfold iblk0
  rw [View.read_apply]
  show V c main_arg4 _ = V c main_arg4 y
  congr 1
  funext a
  apply Fin.ext
  match a with
  | ⟨0, _⟩ => show win0_4.index t 0 * 128 + 1 * (y 0).val = (y 0).val; rw [i4a]; omega

/-- Operand 5's one block is its whole array. -/
theorem whole0_5 (c : Dev nD) (t : Fin cfg0.N) : (iblk0 V c 5 t : Vec Ideal S128 .f32) = V c main_arg5 := by
  obtain ⟨i0a, i0b, i1a, i1b, i2a, i2b, i3a, i4a, i5a, i6a, i7a, i8a, i8b, i9a, oa, ob⟩ := idx0 t
  funext y
  unfold iblk0
  rw [View.read_apply]
  show V c main_arg5 _ = V c main_arg5 y
  congr 1
  funext a
  apply Fin.ext
  match a with
  | ⟨0, _⟩ => show win0_5.index t 0 * 128 + 1 * (y 0).val = (y 0).val; rw [i5a]; omega

/-- Operand 6's one block is its whole array. -/
theorem whole0_6 (c : Dev nD) (t : Fin cfg0.N) : (iblk0 V c 6 t : Vec Ideal S128 .f32) = V c main_arg6 := by
  obtain ⟨i0a, i0b, i1a, i1b, i2a, i2b, i3a, i4a, i5a, i6a, i7a, i8a, i8b, i9a, oa, ob⟩ := idx0 t
  funext y
  unfold iblk0
  rw [View.read_apply]
  show V c main_arg6 _ = V c main_arg6 y
  congr 1
  funext a
  apply Fin.ext
  match a with
  | ⟨0, _⟩ => show win0_6.index t 0 * 128 + 1 * (y 0).val = (y 0).val; rw [i6a]; omega

/-- Operand 7's one block is its whole array. -/
theorem whole0_7 (c : Dev nD) (t : Fin cfg0.N) : (iblk0 V c 7 t : Vec Ideal S128 .f32) = V c main_arg7 := by
  obtain ⟨i0a, i0b, i1a, i1b, i2a, i2b, i3a, i4a, i5a, i6a, i7a, i8a, i8b, i9a, oa, ob⟩ := idx0 t
  funext y
  unfold iblk0
  rw [View.read_apply]
  show V c main_arg7 _ = V c main_arg7 y
  congr 1
  funext a
  apply Fin.ext
  match a with
  | ⟨0, _⟩ => show win0_7.index t 0 * 128 + 1 * (y 0).val = (y 0).val; rw [i7a]; omega

/-- Operand 8's one block is its whole array. -/
theorem whole0_8 (c : Dev nD) (t : Fin cfg0.N) : (iblk0 V c 8 t : Vec Ideal S128x128 .f32) = V c main_arg8 := by
  obtain ⟨i0a, i0b, i1a, i1b, i2a, i2b, i3a, i4a, i5a, i6a, i7a, i8a, i8b, i9a, oa, ob⟩ := idx0 t
  funext y
  unfold iblk0
  rw [View.read_apply]
  show V c main_arg8 _ = V c main_arg8 y
  congr 1
  funext a
  apply Fin.ext
  match a with
  | ⟨0, _⟩ => show win0_8.index t 0 * 128 + 1 * (y 0).val = (y 0).val; rw [i8a]; omega
  | ⟨1, _⟩ => show win0_8.index t 1 * 128 + 1 * (y 1).val = (y 1).val; rw [i8b]; omega

/-- Operand 9's one block is its whole array. -/
theorem whole0_9 (c : Dev nD) (t : Fin cfg0.N) : (iblk0 V c 9 t : Vec Ideal S128 .f32) = V c main_arg9 := by
  obtain ⟨i0a, i0b, i1a, i1b, i2a, i2b, i3a, i4a, i5a, i6a, i7a, i8a, i8b, i9a, oa, ob⟩ := idx0 t
  funext y
  unfold iblk0
  rw [View.read_apply]
  show V c main_arg9 _ = V c main_arg9 y
  congr 1
  funext a
  apply Fin.ext
  match a with
  | ⟨0, _⟩ => show win0_9.index t 0 * 128 + 1 * (y 0).val = (y 0).val; rw [i9a]; omega

/-- The one whole-block store of the body, read through whole-block loads, is the body's term itself. -/
theorem out0_10_eq (x0 : Vec Ideal S5000x128 .f32) (x1 : Vec Ideal S5000x128 .f32) (x2 : Vec Ideal S128x128 .f32) (x3 : Vec Ideal S128 .f32) (x4 : Vec Ideal S128 .f32) (x5 : Vec Ideal S128 .f32) (x6 : Vec Ideal S128 .f32) (x7 : Vec Ideal S128 .f32) (x8 : Vec Ideal S128x128 .f32) (x9 : Vec Ideal S128 .f32) :
    out0_10 x0 x1 x2 x3 x4 x5 x6 x7 x8 x9 = k0_pay1 (k0_pay2 x0 x1 x2 x3 x4 x5 x6 x7 x8) (k0_pay3 x9) := by
  unfold out0_10
  rw [View.canon_unit_zero hz2]
  simp only [View.ld_unit_zero (S := S5000x128) hz2, View.ld_unit_zero (S := S128x128) hz2, View.ld_unit_zero (S := S128) hz1]

/-- Entry `y` of the block point `t` writes back is the row function of row `5000 t + y₀` of the arrays, at `y₁`. -/
theorem block0 (c : Dev nD) (t : Fin cfg0.N) (y : S5000x128.Idx) (row : Fin 50000) (hrow : row.val = 5000 * t.val + (y 0).val) :
    (out0_10 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) : Vec Ideal S5000x128 .f32) y
      = Conv (V c main_arg0) (V c main_v13) (V c main_arg2) (V c main_arg3) (V c main_arg4) (V c main_arg5) (V c main_arg6) (V c main_arg7) (V c main_arg8) (V c main_arg9) (ix2 row (y 1)) := by
  obtain ⟨p, q, rfl⟩ : ∃ (p : Fin 5000) (q : Fin 128), y = ix2 p q := ⟨y 0, y 1, eq_ix2 y⟩
  rw [out0_10_eq]
  refine (body0_apply (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) p q).trans ?_
  rw [whole0_2, whole0_3, whole0_4, whole0_5, whole0_6, whole0_7, whole0_8, whole0_9, Conv_apply]
  refine congrArg (fun f => convRow f (V c main_arg2) (V c main_arg3) (V c main_arg4) (V c main_arg5) (V c main_arg6) (V c main_arg7) (V c main_arg8) (V c main_arg9) q) (funext fun k => ?_)
  rw [rows0_0 V c t p k row hrow, rows0_1 V c t p k row hrow]

/-- What point `t` writes back is block `t` of the whole-array function of the arrays the grid is entered with. -/
theorem flushed0_eq (c : Dev nD) (t : Fin cfg0.N) :
    (dat0 V c).flushed 10 t = ((cfg0.win 10).blk t).view.read (Elt Ideal) (Conv (V c main_arg0) (V c main_v13) (V c main_arg2) (V c main_arg3) (V c main_arg4) (V c main_arg5) (V c main_arg6) (V c main_arg7) (V c main_arg8) (V c main_arg9)) := by
  obtain ⟨i0a, i0b, i1a, i1b, i2a, i2b, i3a, i4a, i5a, i6a, i7a, i8a, i8b, i9a, oa, ob⟩ := idx0 t
  have hN : cfg0.N = 10 := N_0
  have ht := t.isLt
  show (cfg0.win 10).cut (grid0.coords t) ((dat0 V c).after 10 t) = _
  rw [after0_10]
  funext j
  rw [View.read_apply]
  have hj : (j 0).val < 5000 := (j 0).isLt
  refine (block0 V c t j ⟨5000 * t.val + (j 0).val, by omega⟩ rfl).trans ?_
  show Conv (V c main_arg0) (V c main_v13) (V c main_arg2) (V c main_arg3) (V c main_arg4) (V c main_arg5) (V c main_arg6) (V c main_arg7) (V c main_arg8) (V c main_arg9) _ = Conv (V c main_arg0) (V c main_v13) (V c main_arg2) (V c main_arg3) (V c main_arg4) (V c main_arg5) (V c main_arg6) (V c main_arg7) (V c main_arg8) (V c main_arg9) _
  congr 1
  funext a
  apply Fin.ext
  match a with
  | ⟨0, _⟩ => show 5000 * t.val + (j 0).val = win0_10.index t 0 * 5000 + 1 * (j 0).val; rw [oa]; omega
  | ⟨1, _⟩ => show (j 1).val = win0_10.index t 1 * 128 + 1 * (j 1).val; rw [ob]; omega

/-- An index of the result array lies in point `t`'s block iff each coordinate lies in the block's range on its axis. -/
theorem mem_blk0 (t : Fin cfg0.N) (i : S50000x128.Idx) :
    i ∈ ((cfg0.win 10).blk t).view.set ↔ ∀ a : Fin 2, win0_10.index t a * S5000x128.size a ≤ (i a).val ∧ (i a).val < win0_10.index t a * S5000x128.size a + S5000x128.size a := by
  show i ∈ ((View.whole main_v14).slice (win0_10.rect t)).set ↔ _
  rw [View.set_slice_whole, Rect.mem_set_unit]
  exact Iff.rfl

/-- The ten blocks tile the result array (row `i₀` is in block `i₀ / 5000`), so after the grid it holds the whole-array function. -/
theorem final0 (c : Dev nD) : (dat0 V c).arrAt 10 cfg0.N = Conv (V c main_arg0) (V c main_v13) (V c main_arg2) (V c main_arg3) (V c main_arg4) (V c main_arg5) (V c main_arg6) (V c main_arg7) (V c main_arg8) (V c main_arg9) :=
  (dat0 V c).arrAt_eq_of_cover 10 _ (fun t _ => flushed0_eq V c t) fun i => by
    have hN : cfg0.N = 10 := N_0
    have h0 : (i 0).val < 50000 := (i 0).isLt
    have h1 : (i 1).val < 128 := (i 1).isLt
    have hT : (i 0).val / 5000 < cfg0.N := by rw [hN]; omega
    obtain ⟨i0a, i0b, i1a, i1b, i2a, i2b, i3a, i4a, i5a, i6a, i7a, i8a, i8b, i9a, oa, ob⟩ := idx0 ⟨(i 0).val / 5000, hT⟩
    have oa' : win0_10.index ⟨(i 0).val / 5000, hT⟩ 0 = (i 0).val / 5000 := oa
    refine ⟨⟨(i 0).val / 5000, hT⟩, flush0_10 _, ?_⟩
    rw [mem_blk0]
    intro a
    match a with
    | ⟨0, _⟩ => show win0_10.index ⟨(i 0).val / 5000, hT⟩ 0 * 5000 ≤ (i 0).val ∧ (i 0).val < win0_10.index ⟨(i 0).val / 5000, hT⟩ 0 * 5000 + 5000; rw [oa']; omega
    | ⟨1, _⟩ => show win0_10.index ⟨(i 0).val / 5000, hT⟩ 1 * 128 ≤ (i 1).val ∧ (i 1).val < win0_10.index ⟨(i 0).val / 5000, hT⟩ 1 * 128 + 128; rw [ob]; omega

/-! ## The second layer's grid (ten points of 5000 rows) -/

/-- Where each operand's block sits at point `t`: the row-blocked operands and the result at block row `t`, every weight and
    bias at its one block. Decided over the ten points. -/
theorem idx1 : ∀ t : Fin cfg1.N, win1_0.index t (0 : Fin 2) = t.val
    ∧ win1_0.index t (1 : Fin 2) = 0
    ∧ win1_1.index t (0 : Fin 2) = t.val
    ∧ win1_1.index t (1 : Fin 2) = 0
    ∧ win1_2.index t (0 : Fin 2) = 0
    ∧ win1_2.index t (1 : Fin 2) = 0
    ∧ win1_3.index t (0 : Fin 1) = 0
    ∧ win1_4.index t (0 : Fin 1) = 0
    ∧ win1_5.index t (0 : Fin 1) = 0
    ∧ win1_6.index t (0 : Fin 1) = 0
    ∧ win1_7.index t (0 : Fin 1) = 0
    ∧ win1_8.index t (0 : Fin 2) = 0
    ∧ win1_8.index t (1 : Fin 2) = 0
    ∧ win1_9.index t (0 : Fin 1) = 0
    ∧ win1_10.index t (0 : Fin 2) = t.val
    ∧ win1_10.index t (1 : Fin 2) = 0 :=
  (by decide +kernel : ∀ t : Fin grid1.N, _)

/-- Row `p` of operand 0's block at point `t` is row `5000 t + p` of its array. -/
theorem rows1_0 (c : Dev nD) (t : Fin cfg1.N) (p : Fin 5000) (k : Fin 128) (row : Fin 50000) (hrow : row.val = 5000 * t.val + p.val) :
    (iblk1 V c 0 t : Vec Ideal S5000x128 .f32) (ix2 p k) = (V c main_v14 : S50000x128.Idx → EReal) (ix2 row k) := by
  obtain ⟨i0a, i0b, i1a, i1b, i2a, i2b, i3a, i4a, i5a, i6a, i7a, i8a, i8b, i9a, oa, ob⟩ := idx1 t
  unfold iblk1
  rw [View.read_apply]
  show V c main_v14 _ = V c main_v14 _
  congr 1
  funext a
  apply Fin.ext
  match a with
  | ⟨0, _⟩ => show win1_0.index t 0 * 5000 + 1 * p.val = row.val; rw [i0a, hrow]; omega
  | ⟨1, _⟩ => show win1_0.index t 1 * 128 + 1 * k.val = k.val; rw [i0b]; omega

/-- Row `p` of operand 1's block at point `t` is row `5000 t + p` of its array. -/
theorem rows1_1 (c : Dev nD) (t : Fin cfg1.N) (p : Fin 5000) (k : Fin 128) (row : Fin 50000) (hrow : row.val = 5000 * t.val + p.val) :
    (iblk1 V c 1 t : Vec Ideal S5000x128 .f32) (ix2 p k) = (V c main_v24 : S50000x128.Idx → EReal) (ix2 row k) := by
  obtain ⟨i0a, i0b, i1a, i1b, i2a, i2b, i3a, i4a, i5a, i6a, i7a, i8a, i8b, i9a, oa, ob⟩ := idx1 t
  unfold iblk1
  rw [View.read_apply]
  show V c main_v24 _ = V c main_v24 _
  congr 1
  funext a
  apply Fin.ext
  match a with
  | ⟨0, _⟩ => show win1_1.index t 0 * 5000 + 1 * p.val = row.val; rw [i1a, hrow]; omega
  | ⟨1, _⟩ => show win1_1.index t 1 * 128 + 1 * k.val = k.val; rw [i1b]; omega

/-- Operand 2's one block is its whole array. -/
theorem whole1_2 (c : Dev nD) (t : Fin cfg1.N) : (iblk1 V c 2 t : Vec Ideal S128x128 .f32) = V c main_arg10 := by
  obtain ⟨i0a, i0b, i1a, i1b, i2a, i2b, i3a, i4a, i5a, i6a, i7a, i8a, i8b, i9a, oa, ob⟩ := idx1 t
  funext y
  unfold iblk1
  rw [View.read_apply]
  show V c main_arg10 _ = V c main_arg10 y
  congr 1
  funext a
  apply Fin.ext
  match a with
  | ⟨0, _⟩ => show win1_2.index t 0 * 128 + 1 * (y 0).val = (y 0).val; rw [i2a]; omega
  | ⟨1, _⟩ => show win1_2.index t 1 * 128 + 1 * (y 1).val = (y 1).val; rw [i2b]; omega

/-- Operand 3's one block is its whole array. -/
theorem whole1_3 (c : Dev nD) (t : Fin cfg1.N) : (iblk1 V c 3 t : Vec Ideal S128 .f32) = V c main_arg11 := by
  obtain ⟨i0a, i0b, i1a, i1b, i2a, i2b, i3a, i4a, i5a, i6a, i7a, i8a, i8b, i9a, oa, ob⟩ := idx1 t
  funext y
  unfold iblk1
  rw [View.read_apply]
  show V c main_arg11 _ = V c main_arg11 y
  congr 1
  funext a
  apply Fin.ext
  match a with
  | ⟨0, _⟩ => show win1_3.index t 0 * 128 + 1 * (y 0).val = (y 0).val; rw [i3a]; omega

/-- Operand 4's one block is its whole array. -/
theorem whole1_4 (c : Dev nD) (t : Fin cfg1.N) : (iblk1 V c 4 t : Vec Ideal S128 .f32) = V c main_arg12 := by
  obtain ⟨i0a, i0b, i1a, i1b, i2a, i2b, i3a, i4a, i5a, i6a, i7a, i8a, i8b, i9a, oa, ob⟩ := idx1 t
  funext y
  unfold iblk1
  rw [View.read_apply]
  show V c main_arg12 _ = V c main_arg12 y
  congr 1
  funext a
  apply Fin.ext
  match a with
  | ⟨0, _⟩ => show win1_4.index t 0 * 128 + 1 * (y 0).val = (y 0).val; rw [i4a]; omega

/-- Operand 5's one block is its whole array. -/
theorem whole1_5 (c : Dev nD) (t : Fin cfg1.N) : (iblk1 V c 5 t : Vec Ideal S128 .f32) = V c main_arg13 := by
  obtain ⟨i0a, i0b, i1a, i1b, i2a, i2b, i3a, i4a, i5a, i6a, i7a, i8a, i8b, i9a, oa, ob⟩ := idx1 t
  funext y
  unfold iblk1
  rw [View.read_apply]
  show V c main_arg13 _ = V c main_arg13 y
  congr 1
  funext a
  apply Fin.ext
  match a with
  | ⟨0, _⟩ => show win1_5.index t 0 * 128 + 1 * (y 0).val = (y 0).val; rw [i5a]; omega

/-- Operand 6's one block is its whole array. -/
theorem whole1_6 (c : Dev nD) (t : Fin cfg1.N) : (iblk1 V c 6 t : Vec Ideal S128 .f32) = V c main_arg14 := by
  obtain ⟨i0a, i0b, i1a, i1b, i2a, i2b, i3a, i4a, i5a, i6a, i7a, i8a, i8b, i9a, oa, ob⟩ := idx1 t
  funext y
  unfold iblk1
  rw [View.read_apply]
  show V c main_arg14 _ = V c main_arg14 y
  congr 1
  funext a
  apply Fin.ext
  match a with
  | ⟨0, _⟩ => show win1_6.index t 0 * 128 + 1 * (y 0).val = (y 0).val; rw [i6a]; omega

/-- Operand 7's one block is its whole array. -/
theorem whole1_7 (c : Dev nD) (t : Fin cfg1.N) : (iblk1 V c 7 t : Vec Ideal S128 .f32) = V c main_arg15 := by
  obtain ⟨i0a, i0b, i1a, i1b, i2a, i2b, i3a, i4a, i5a, i6a, i7a, i8a, i8b, i9a, oa, ob⟩ := idx1 t
  funext y
  unfold iblk1
  rw [View.read_apply]
  show V c main_arg15 _ = V c main_arg15 y
  congr 1
  funext a
  apply Fin.ext
  match a with
  | ⟨0, _⟩ => show win1_7.index t 0 * 128 + 1 * (y 0).val = (y 0).val; rw [i7a]; omega

/-- Operand 8's one block is its whole array. -/
theorem whole1_8 (c : Dev nD) (t : Fin cfg1.N) : (iblk1 V c 8 t : Vec Ideal S128x128 .f32) = V c main_arg16 := by
  obtain ⟨i0a, i0b, i1a, i1b, i2a, i2b, i3a, i4a, i5a, i6a, i7a, i8a, i8b, i9a, oa, ob⟩ := idx1 t
  funext y
  unfold iblk1
  rw [View.read_apply]
  show V c main_arg16 _ = V c main_arg16 y
  congr 1
  funext a
  apply Fin.ext
  match a with
  | ⟨0, _⟩ => show win1_8.index t 0 * 128 + 1 * (y 0).val = (y 0).val; rw [i8a]; omega
  | ⟨1, _⟩ => show win1_8.index t 1 * 128 + 1 * (y 1).val = (y 1).val; rw [i8b]; omega

/-- Operand 9's one block is its whole array. -/
theorem whole1_9 (c : Dev nD) (t : Fin cfg1.N) : (iblk1 V c 9 t : Vec Ideal S128 .f32) = V c main_arg17 := by
  obtain ⟨i0a, i0b, i1a, i1b, i2a, i2b, i3a, i4a, i5a, i6a, i7a, i8a, i8b, i9a, oa, ob⟩ := idx1 t
  funext y
  unfold iblk1
  rw [View.read_apply]
  show V c main_arg17 _ = V c main_arg17 y
  congr 1
  funext a
  apply Fin.ext
  match a with
  | ⟨0, _⟩ => show win1_9.index t 0 * 128 + 1 * (y 0).val = (y 0).val; rw [i9a]; omega

/-- The one whole-block store of the body, read through whole-block loads, is the body's term itself. -/
theorem out1_10_eq (x0 : Vec Ideal S5000x128 .f32) (x1 : Vec Ideal S5000x128 .f32) (x2 : Vec Ideal S128x128 .f32) (x3 : Vec Ideal S128 .f32) (x4 : Vec Ideal S128 .f32) (x5 : Vec Ideal S128 .f32) (x6 : Vec Ideal S128 .f32) (x7 : Vec Ideal S128 .f32) (x8 : Vec Ideal S128x128 .f32) (x9 : Vec Ideal S128 .f32) :
    out1_10 x0 x1 x2 x3 x4 x5 x6 x7 x8 x9 = k1_pay1 x9 (k1_pay2 x0 x1 x2 x3 x4 x5 x6 x7 x8) := by
  unfold out1_10
  rw [View.canon_unit_zero hz2]
  simp only [View.ld_unit_zero (S := S5000x128) hz2, View.ld_unit_zero (S := S128x128) hz2, View.ld_unit_zero (S := S128) hz1]

/-- Entry `y` of the block point `t` writes back is the row function of row `5000 t + y₀` of the arrays, at `y₁`. -/
theorem block1 (c : Dev nD) (t : Fin cfg1.N) (y : S5000x128.Idx) (row : Fin 50000) (hrow : row.val = 5000 * t.val + (y 0).val) :
    (out1_10 (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) : Vec Ideal S5000x128 .f32) y
      = Conv (V c main_v14) (V c main_v24) (V c main_arg10) (V c main_arg11) (V c main_arg12) (V c main_arg13) (V c main_arg14) (V c main_arg15) (V c main_arg16) (V c main_arg17) (ix2 row (y 1)) := by
  obtain ⟨p, q, rfl⟩ : ∃ (p : Fin 5000) (q : Fin 128), y = ix2 p q := ⟨y 0, y 1, eq_ix2 y⟩
  rw [out1_10_eq]
  refine (body1_apply (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) p q).trans ?_
  rw [whole1_2, whole1_3, whole1_4, whole1_5, whole1_6, whole1_7, whole1_8, whole1_9, Conv_apply]
  refine congrArg (fun f => convRow f (V c main_arg10) (V c main_arg11) (V c main_arg12) (V c main_arg13) (V c main_arg14) (V c main_arg15) (V c main_arg16) (V c main_arg17) q) (funext fun k => ?_)
  rw [rows1_0 V c t p k row hrow, rows1_1 V c t p k row hrow]

/-- What point `t` writes back is block `t` of the whole-array function of the arrays the grid is entered with. -/
theorem flushed1_eq (c : Dev nD) (t : Fin cfg1.N) :
    (dat1 V c).flushed 10 t = ((cfg1.win 10).blk t).view.read (Elt Ideal) (Conv (V c main_v14) (V c main_v24) (V c main_arg10) (V c main_arg11) (V c main_arg12) (V c main_arg13) (V c main_arg14) (V c main_arg15) (V c main_arg16) (V c main_arg17)) := by
  obtain ⟨i0a, i0b, i1a, i1b, i2a, i2b, i3a, i4a, i5a, i6a, i7a, i8a, i8b, i9a, oa, ob⟩ := idx1 t
  have hN : cfg1.N = 10 := N_1
  have ht := t.isLt
  show (cfg1.win 10).cut (grid1.coords t) ((dat1 V c).after 10 t) = _
  rw [after1_10]
  funext j
  rw [View.read_apply]
  have hj : (j 0).val < 5000 := (j 0).isLt
  refine (block1 V c t j ⟨5000 * t.val + (j 0).val, by omega⟩ rfl).trans ?_
  show Conv (V c main_v14) (V c main_v24) (V c main_arg10) (V c main_arg11) (V c main_arg12) (V c main_arg13) (V c main_arg14) (V c main_arg15) (V c main_arg16) (V c main_arg17) _ = Conv (V c main_v14) (V c main_v24) (V c main_arg10) (V c main_arg11) (V c main_arg12) (V c main_arg13) (V c main_arg14) (V c main_arg15) (V c main_arg16) (V c main_arg17) _
  congr 1
  funext a
  apply Fin.ext
  match a with
  | ⟨0, _⟩ => show 5000 * t.val + (j 0).val = win1_10.index t 0 * 5000 + 1 * (j 0).val; rw [oa]; omega
  | ⟨1, _⟩ => show (j 1).val = win1_10.index t 1 * 128 + 1 * (j 1).val; rw [ob]; omega

/-- An index of the result array lies in point `t`'s block iff each coordinate lies in the block's range on its axis. -/
theorem mem_blk1 (t : Fin cfg1.N) (i : S50000x128.Idx) :
    i ∈ ((cfg1.win 10).blk t).view.set ↔ ∀ a : Fin 2, win1_10.index t a * S5000x128.size a ≤ (i a).val ∧ (i a).val < win1_10.index t a * S5000x128.size a + S5000x128.size a := by
  show i ∈ ((View.whole main_v25).slice (win1_10.rect t)).set ↔ _
  rw [View.set_slice_whole, Rect.mem_set_unit]
  exact Iff.rfl

/-- The ten blocks tile the result array (row `i₀` is in block `i₀ / 5000`), so after the grid it holds the whole-array function. -/
theorem final1 (c : Dev nD) : (dat1 V c).arrAt 10 cfg1.N = Conv (V c main_v14) (V c main_v24) (V c main_arg10) (V c main_arg11) (V c main_arg12) (V c main_arg13) (V c main_arg14) (V c main_arg15) (V c main_arg16) (V c main_arg17) :=
  (dat1 V c).arrAt_eq_of_cover 10 _ (fun t _ => flushed1_eq V c t) fun i => by
    have hN : cfg1.N = 10 := N_1
    have h0 : (i 0).val < 50000 := (i 0).isLt
    have h1 : (i 1).val < 128 := (i 1).isLt
    have hT : (i 0).val / 5000 < cfg1.N := by rw [hN]; omega
    obtain ⟨i0a, i0b, i1a, i1b, i2a, i2b, i3a, i4a, i5a, i6a, i7a, i8a, i8b, i9a, oa, ob⟩ := idx1 ⟨(i 0).val / 5000, hT⟩
    have oa' : win1_10.index ⟨(i 0).val / 5000, hT⟩ 0 = (i 0).val / 5000 := oa
    refine ⟨⟨(i 0).val / 5000, hT⟩, flush1_10 _, ?_⟩
    rw [mem_blk1]
    intro a
    match a with
    | ⟨0, _⟩ => show win1_10.index ⟨(i 0).val / 5000, hT⟩ 0 * 5000 ≤ (i 0).val ∧ (i 0).val < win1_10.index ⟨(i 0).val / 5000, hT⟩ 0 * 5000 + 5000; rw [oa']; omega
    | ⟨1, _⟩ => show win1_10.index ⟨(i 0).val / 5000, hT⟩ 1 * 128 ≤ (i 1).val ∧ (i 1).val < win1_10.index ⟨(i 0).val / 5000, hT⟩ 1 * 128 + 128; rw [ob]; omega

/-! ## The head's grid (ten points of 5000 rows) -/

/-- Where each operand's block sits at point `t`: the row-blocked operands and the result at block row `t`, every weight and
    bias at its one block. Decided over the ten points. -/
theorem idx2 : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 1) = 0
    ∧ win2_3.index t (0 : Fin 2) = 0
    ∧ win2_3.index t (1 : Fin 2) = 0
    ∧ win2_4.index t (0 : Fin 1) = 0
    ∧ win2_5.index t (0 : Fin 2) = t.val
    ∧ win2_5.index t (1 : Fin 2) = 0 :=
  (by decide +kernel : ∀ t : Fin grid2.N, _)

/-- Row `p` of operand 0's block at point `t` is row `5000 t + p` of its array. -/
theorem rows2_0 (c : Dev nD) (t : Fin cfg2.N) (p : Fin 5000) (k : Fin 128) (row : Fin 50000) (hrow : row.val = 5000 * t.val + p.val) :
    (iblk2 V c 0 t : Vec Ideal S5000x128 .f32) (ix2 p k) = (V c main_v25 : S50000x128.Idx → EReal) (ix2 row k) := by
  obtain ⟨i0a, i0b, i1a, i1b, i2a, i3a, i3b, i4a, oa, ob⟩ := idx2 t
  unfold iblk2
  rw [View.read_apply]
  show V c main_v25 _ = V c main_v25 _
  congr 1
  funext a
  apply Fin.ext
  match a with
  | ⟨0, _⟩ => show win2_0.index t 0 * 5000 + 1 * p.val = row.val; rw [i0a, hrow]; omega
  | ⟨1, _⟩ => show win2_0.index t 1 * 128 + 1 * k.val = k.val; rw [i0b]; omega

/-- Operand 1's one block is its whole array. -/
theorem whole2_1 (c : Dev nD) (t : Fin cfg2.N) : (iblk2 V c 1 t : Vec Ideal S128x128 .f32) = V c main_arg18 := by
  obtain ⟨i0a, i0b, i1a, i1b, i2a, i3a, i3b, i4a, oa, ob⟩ := idx2 t
  funext y
  unfold iblk2
  rw [View.read_apply]
  show V c main_arg18 _ = V c main_arg18 y
  congr 1
  funext a
  apply Fin.ext
  match a with
  | ⟨0, _⟩ => show win2_1.index t 0 * 128 + 1 * (y 0).val = (y 0).val; rw [i1a]; omega
  | ⟨1, _⟩ => show win2_1.index t 1 * 128 + 1 * (y 1).val = (y 1).val; rw [i1b]; omega

/-- Operand 2's one block is its whole array. -/
theorem whole2_2 (c : Dev nD) (t : Fin cfg2.N) : (iblk2 V c 2 t : Vec Ideal S128 .f32) = V c main_arg19 := by
  obtain ⟨i0a, i0b, i1a, i1b, i2a, i3a, i3b, i4a, oa, ob⟩ := idx2 t
  funext y
  unfold iblk2
  rw [View.read_apply]
  show V c main_arg19 _ = V c main_arg19 y
  congr 1
  funext a
  apply Fin.ext
  match a with
  | ⟨0, _⟩ => show win2_2.index t 0 * 128 + 1 * (y 0).val = (y 0).val; rw [i2a]; omega

/-- Operand 3's one block is its whole array. -/
theorem whole2_3 (c : Dev nD) (t : Fin cfg2.N) : (iblk2 V c 3 t : Vec Ideal S64x128 .f32) = V c main_arg20 := by
  obtain ⟨i0a, i0b, i1a, i1b, i2a, i3a, i3b, i4a, oa, ob⟩ := idx2 t
  funext y
  unfold iblk2
  rw [View.read_apply]
  show V c main_arg20 _ = V c main_arg20 y
  congr 1
  funext a
  apply Fin.ext
  match a with
  | ⟨0, _⟩ => show win2_3.index t 0 * 64 + 1 * (y 0).val = (y 0).val; rw [i3a]; omega
  | ⟨1, _⟩ => show win2_3.index t 1 * 128 + 1 * (y 1).val = (y 1).val; rw [i3b]; omega

/-- Operand 4's one block is its whole array. -/
theorem whole2_4 (c : Dev nD) (t : Fin cfg2.N) : (iblk2 V c 4 t : Vec Ideal S64 .f32) = V c main_arg21 := by
  obtain ⟨i0a, i0b, i1a, i1b, i2a, i3a, i3b, i4a, oa, ob⟩ := idx2 t
  funext y
  unfold iblk2
  rw [View.read_apply]
  show V c main_arg21 _ = V c main_arg21 y
  congr 1
  funext a
  apply Fin.ext
  match a with
  | ⟨0, _⟩ => show win2_4.index t 0 * 64 + 1 * (y 0).val = (y 0).val; rw [i4a]; omega

/-- The one whole-block store of the body, read through whole-block loads, is the body's term itself. -/
theorem out2_5_eq (x0 : Vec Ideal S5000x128 .f32) (x1 : Vec Ideal S128x128 .f32) (x2 : Vec Ideal S128 .f32) (x3 : Vec Ideal S64x128 .f32) (x4 : Vec Ideal S64 .f32) :
    out2_5 x0 x1 x2 x3 x4 = k2_pay1 x0 x1 x2 x3 x4 := by
  unfold out2_5
  rw [View.canon_unit_zero hz2]
  simp only [View.ld_unit_zero (S := S5000x128) hz2, View.ld_unit_zero (S := S128x128) hz2, View.ld_unit_zero (S := S128) hz1, View.ld_unit_zero (S := S64x128) hz2, View.ld_unit_zero (S := S64) hz1]

/-- Entry `y` of the block point `t` writes back is the row function of row `5000 t + y₀` of the arrays, at `y₁`. -/
theorem block2 (c : Dev nD) (t : Fin cfg2.N) (y : S5000x64.Idx) (row : Fin 50000) (hrow : row.val = 5000 * t.val + (y 0).val) :
    (out2_5 (iblk2 V c 0 t) (iblk2 V c 1 t) (iblk2 V c 2 t) (iblk2 V c 3 t) (iblk2 V c 4 t) : Vec Ideal S5000x64 .f32) y
      = Head (V c main_v25) (V c main_arg18) (V c main_arg19) (V c main_arg20) (V c main_arg21) (ix2 row (y 1)) := by
  obtain ⟨p, q, rfl⟩ : ∃ (p : Fin 5000) (q : Fin 64), y = ix2 p q := ⟨y 0, y 1, eq_ix2 y⟩
  rw [out2_5_eq]
  refine (body2_apply (iblk2 V c 0 t) (iblk2 V c 1 t) (iblk2 V c 2 t) (iblk2 V c 3 t) (iblk2 V c 4 t) p q).trans ?_
  rw [whole2_1, whole2_2, whole2_3, whole2_4, Head_apply]
  refine congrArg (fun f => headRow f (V c main_arg18) (V c main_arg19) (V c main_arg20) (V c main_arg21) q) (funext fun k => ?_)
  exact rows2_0 V c t p k row hrow

/-- What point `t` writes back is block `t` of the whole-array function of the arrays the grid is entered with. -/
theorem flushed2_eq (c : Dev nD) (t : Fin cfg2.N) :
    (dat2 V c).flushed 5 t = ((cfg2.win 5).blk t).view.read (Elt Ideal) (Head (V c main_v25) (V c main_arg18) (V c main_arg19) (V c main_arg20) (V c main_arg21)) := by
  obtain ⟨i0a, i0b, i1a, i1b, i2a, i3a, i3b, i4a, oa, ob⟩ := idx2 t
  have hN : cfg2.N = 10 := N_2
  have ht := t.isLt
  show (cfg2.win 5).cut (grid2.coords t) ((dat2 V c).after 5 t) = _
  rw [after2_5]
  funext j
  rw [View.read_apply]
  have hj : (j 0).val < 5000 := (j 0).isLt
  refine (block2 V c t j ⟨5000 * t.val + (j 0).val, by omega⟩ rfl).trans ?_
  show Head (V c main_v25) (V c main_arg18) (V c main_arg19) (V c main_arg20) (V c main_arg21) _ = Head (V c main_v25) (V c main_arg18) (V c main_arg19) (V c main_arg20) (V c main_arg21) _
  congr 1
  funext a
  apply Fin.ext
  match a with
  | ⟨0, _⟩ => show 5000 * t.val + (j 0).val = win2_5.index t 0 * 5000 + 1 * (j 0).val; rw [oa]; omega
  | ⟨1, _⟩ => show (j 1).val = win2_5.index t 1 * 64 + 1 * (j 1).val; rw [ob]; omega

/-- An index of the result array lies in point `t`'s block iff each coordinate lies in the block's range on its axis. -/
theorem mem_blk2 (t : Fin cfg2.N) (i : S50000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v26).slice (win2_5.rect t)).set ↔ _
  rw [View.set_slice_whole, Rect.mem_set_unit]
  exact Iff.rfl

/-- The ten blocks tile the result array (row `i₀` is in block `i₀ / 5000`), so after the grid it holds the whole-array function. -/
theorem final2 (c : Dev nD) : (dat2 V c).arrAt 5 cfg2.N = Head (V c main_v25) (V c main_arg18) (V c main_arg19) (V c main_arg20) (V c main_arg21) :=
  (dat2 V c).arrAt_eq_of_cover 5 _ (fun t _ => flushed2_eq V c t) fun i => by
    have hN : cfg2.N = 10 := N_2
    have h0 : (i 0).val < 50000 := (i 0).isLt
    have h1 : (i 1).val < 64 := (i 1).isLt
    have hT : (i 0).val / 5000 < cfg2.N := by rw [hN]; omega
    obtain ⟨i0a, i0b, i1a, i1b, i2a, i3a, i3b, i4a, oa, ob⟩ := idx2 ⟨(i 0).val / 5000, hT⟩
    have oa' : win2_5.index ⟨(i 0).val / 5000, hT⟩ 0 = (i 0).val / 5000 := oa
    refine ⟨⟨(i 0).val / 5000, hT⟩, flush2_5 _, ?_⟩
    rw [mem_blk2]
    intro a
    match a with
    | ⟨0, _⟩ => show win2_5.index ⟨(i 0).val / 5000, hT⟩ 0 * 5000 ≤ (i 0).val ∧ (i 0).val < win2_5.index ⟨(i 0).val / 5000, hT⟩ 0 * 5000 + 5000; rw [oa']; omega
    | ⟨1, _⟩ => show win2_5.index ⟨(i 0).val / 5000, hT⟩ 1 * 64 ≤ (i 1).val ∧ (i 1).val < win2_5.index ⟨(i 0).val / 5000, hT⟩ 1 * 64 + 64; rw [ob]; omega

end Cert.KernelBlocks

end
-- ==== Proof.KernelValue.lean ====
/-
  The idealized kernel's result as one function of its arguments.

  Reading the last segment boundary back through the program: the result array is what the head's grid leaves, `Head` of
  the second layer's output and the head's weights; the second layer's output is what its grid leaves, `Conv` of the first
  layer's output, of the neighbour sum of that output, and of the second layer's weights; the first layer's output is
  `Conv` of the features, of their neighbour sum, and of the first layer's weights. No host operation and no grid writes
  an argument array, and the edge list is only ever read, so every weight a grid stages is the launch memory's and both
  neighbour sums use the launch memory's edges. The neighbour sum itself — gather the source rows, add them into the
  destination rows — is never opened: it is the same term of its operands on both sides of the claim, and it is named
  here by the reference's own stage.
-/
import proofs.«129006_j75204877353218_1_alg».proof.Proof.KernelRun
import proofs.«129006_j75204877353218_1_alg».proof.Proof.KernelBlocks
import proofs.«129006_j75204877353218_1_alg».proof.Proof.Gen.ReferenceIdeal.Read
import Idealize.ShloMosaic.Lib.StableHlo.Run

set_option maxRecDepth 16384

noncomputable section

namespace Cert.KernelValue

open Cert.KernelIdeal Cert.KernelIdeal.Gen Cert.Rows Cert.KernelBlocks
open Idealize.ShloMosaic Idealize.ShloMosaic.TcCoe Idealize.SL.Sem Idealize.ShloMosaic.StableHlo
open Idealize.ShloMosaic.Pipeline (Dat)

variable (m : (ℓ : Loc nD τ sig) → Buf (Elt Ideal) ℓ) (ρ : Dev nD → PrngReg)

/-! ## The argument arrays at each segment boundary -/

theorem W1_arg0 (c : Dev nD) : W1 m ρ c (Proc.devRef .tc main_arg0) = m ((c : Thread nD τ).loc main_arg0) := by
  show StableHlo.after hostOps0 (W0 m ρ c) (Proc.devRef .tc main_arg0) = _
  after_results
  try rfl
theorem W1_arg1 (c : Dev nD) : W1 m ρ c (Proc.devRef .tc main_arg1) = m ((c : Thread nD τ).loc main_arg1) := by
  show StableHlo.after hostOps0 (W0 m ρ c) (Proc.devRef .tc main_arg1) = _
  after_results
  try rfl
theorem W1_arg2 (c : Dev nD) : W1 m ρ c (Proc.devRef .tc main_arg2) = m ((c : Thread nD τ).loc main_arg2) := by
  show StableHlo.after hostOps0 (W0 m ρ c) (Proc.devRef .tc main_arg2) = _
  after_results
  try rfl
theorem W1_arg3 (c : Dev nD) : W1 m ρ c (Proc.devRef .tc main_arg3) = m ((c : Thread nD τ).loc main_arg3) := by
  show StableHlo.after hostOps0 (W0 m ρ c) (Proc.devRef .tc main_arg3) = _
  after_results
  try rfl
theorem W1_arg4 (c : Dev nD) : W1 m ρ c (Proc.devRef .tc main_arg4) = m ((c : Thread nD τ).loc main_arg4) := by
  show StableHlo.after hostOps0 (W0 m ρ c) (Proc.devRef .tc main_arg4) = _
  after_results
  try rfl
theorem W1_arg5 (c : Dev nD) : W1 m ρ c (Proc.devRef .tc main_arg5) = m ((c : Thread nD τ).loc main_arg5) := by
  show StableHlo.after hostOps0 (W0 m ρ c) (Proc.devRef .tc main_arg5) = _
  after_results
  try rfl
theorem W1_arg6 (c : Dev nD) : W1 m ρ c (Proc.devRef .tc main_arg6) = m ((c : Thread nD τ).loc main_arg6) := by
  show StableHlo.after hostOps0 (W0 m ρ c) (Proc.devRef .tc main_arg6) = _
  after_results
  try rfl
theorem W1_arg7 (c : Dev nD) : W1 m ρ c (Proc.devRef .tc main_arg7) = m ((c : Thread nD τ).loc main_arg7) := by
  show StableHlo.after hostOps0 (W0 m ρ c) (Proc.devRef .tc main_arg7) = _
  after_results
  try rfl
theorem W1_arg8 (c : Dev nD) : W1 m ρ c (Proc.devRef .tc main_arg8) = m ((c : Thread nD τ).loc main_arg8) := by
  show StableHlo.after hostOps0 (W0 m ρ c) (Proc.devRef .tc main_arg8) = _
  after_results
  try rfl
theorem W1_arg9 (c : Dev nD) : W1 m ρ c (Proc.devRef .tc main_arg9) = m ((c : Thread nD τ).loc main_arg9) := by
  show StableHlo.after hostOps0 (W0 m ρ c) (Proc.devRef .tc main_arg9) = _
  after_results
  try rfl
theorem W1_arg10 (c : Dev nD) : W1 m ρ c (Proc.devRef .tc main_arg10) = m ((c : Thread nD τ).loc main_arg10) := by
  show StableHlo.after hostOps0 (W0 m ρ c) (Proc.devRef .tc main_arg10) = _
  after_results
  try rfl
theorem W1_arg11 (c : Dev nD) : W1 m ρ c (Proc.devRef .tc main_arg11) = m ((c : Thread nD τ).loc main_arg11) := by
  show StableHlo.after hostOps0 (W0 m ρ c) (Proc.devRef .tc main_arg11) = _
  after_results
  try rfl
theorem W1_arg12 (c : Dev nD) : W1 m ρ c (Proc.devRef .tc main_arg12) = m ((c : Thread nD τ).loc main_arg12) := by
  show StableHlo.after hostOps0 (W0 m ρ c) (Proc.devRef .tc main_arg12) = _
  after_results
  try rfl
theorem W1_arg13 (c : Dev nD) : W1 m ρ c (Proc.devRef .tc main_arg13) = m ((c : Thread nD τ).loc main_arg13) := by
  show StableHlo.after hostOps0 (W0 m ρ c) (Proc.devRef .tc main_arg13) = _
  after_results
  try rfl
theorem W1_arg14 (c : Dev nD) : W1 m ρ c (Proc.devRef .tc main_arg14) = m ((c : Thread nD τ).loc main_arg14) := by
  show StableHlo.after hostOps0 (W0 m ρ c) (Proc.devRef .tc main_arg14) = _
  after_results
  try rfl
theorem W1_arg15 (c : Dev nD) : W1 m ρ c (Proc.devRef .tc main_arg15) = m ((c : Thread nD τ).loc main_arg15) := by
  show StableHlo.after hostOps0 (W0 m ρ c) (Proc.devRef .tc main_arg15) = _
  after_results
  try rfl
theorem W1_arg16 (c : Dev nD) : W1 m ρ c (Proc.devRef .tc main_arg16) = m ((c : Thread nD τ).loc main_arg16) := by
  show StableHlo.after hostOps0 (W0 m ρ c) (Proc.devRef .tc main_arg16) = _
  after_results
  try rfl
theorem W1_arg17 (c : Dev nD) : W1 m ρ c (Proc.devRef .tc main_arg17) = m ((c : Thread nD τ).loc main_arg17) := by
  show StableHlo.after hostOps0 (W0 m ρ c) (Proc.devRef .tc main_arg17) = _
  after_results
  try rfl
theorem W1_arg18 (c : Dev nD) : W1 m ρ c (Proc.devRef .tc main_arg18) = m ((c : Thread nD τ).loc main_arg18) := by
  show StableHlo.after hostOps0 (W0 m ρ c) (Proc.devRef .tc main_arg18) = _
  after_results
  try rfl
theorem W1_arg19 (c : Dev nD) : W1 m ρ c (Proc.devRef .tc main_arg19) = m ((c : Thread nD τ).loc main_arg19) := by
  show StableHlo.after hostOps0 (W0 m ρ c) (Proc.devRef .tc main_arg19) = _
  after_results
  try rfl
theorem W1_arg20 (c : Dev nD) : W1 m ρ c (Proc.devRef .tc main_arg20) = m ((c : Thread nD τ).loc main_arg20) := by
  show StableHlo.after hostOps0 (W0 m ρ c) (Proc.devRef .tc main_arg20) = _
  after_results
  try rfl
theorem W1_arg21 (c : Dev nD) : W1 m ρ c (Proc.devRef .tc main_arg21) = m ((c : Thread nD τ).loc main_arg21) := by
  show StableHlo.after hostOps0 (W0 m ρ c) (Proc.devRef .tc main_arg21) = _
  after_results
  try rfl

theorem W2_arg1 (c : Dev nD) : W2 m ρ c (Proc.devRef .tc main_arg1) = m ((c : Thread nD τ).loc main_arg1) :=
  (W2_of_ne m ρ c main_arg1 (by decide)).trans (W1_arg1 m ρ c)
theorem W2_arg10 (c : Dev nD) : W2 m ρ c (Proc.devRef .tc main_arg10) = m ((c : Thread nD τ).loc main_arg10) :=
  (W2_of_ne m ρ c main_arg10 (by decide)).trans (W1_arg10 m ρ c)
theorem W2_arg11 (c : Dev nD) : W2 m ρ c (Proc.devRef .tc main_arg11) = m ((c : Thread nD τ).loc main_arg11) :=
  (W2_of_ne m ρ c main_arg11 (by decide)).trans (W1_arg11 m ρ c)
theorem W2_arg12 (c : Dev nD) : W2 m ρ c (Proc.devRef .tc main_arg12) = m ((c : Thread nD τ).loc main_arg12) :=
  (W2_of_ne m ρ c main_arg12 (by decide)).trans (W1_arg12 m ρ c)
theorem W2_arg13 (c : Dev nD) : W2 m ρ c (Proc.devRef .tc main_arg13) = m ((c : Thread nD τ).loc main_arg13) :=
  (W2_of_ne m ρ c main_arg13 (by decide)).trans (W1_arg13 m ρ c)
theorem W2_arg14 (c : Dev nD) : W2 m ρ c (Proc.devRef .tc main_arg14) = m ((c : Thread nD τ).loc main_arg14) :=
  (W2_of_ne m ρ c main_arg14 (by decide)).trans (W1_arg14 m ρ c)
theorem W2_arg15 (c : Dev nD) : W2 m ρ c (Proc.devRef .tc main_arg15) = m ((c : Thread nD τ).loc main_arg15) :=
  (W2_of_ne m ρ c main_arg15 (by decide)).trans (W1_arg15 m ρ c)
theorem W2_arg16 (c : Dev nD) : W2 m ρ c (Proc.devRef .tc main_arg16) = m ((c : Thread nD τ).loc main_arg16) :=
  (W2_of_ne m ρ c main_arg16 (by decide)).trans (W1_arg16 m ρ c)
theorem W2_arg17 (c : Dev nD) : W2 m ρ c (Proc.devRef .tc main_arg17) = m ((c : Thread nD τ).loc main_arg17) :=
  (W2_of_ne m ρ c main_arg17 (by decide)).trans (W1_arg17 m ρ c)
theorem W2_arg18 (c : Dev nD) : W2 m ρ c (Proc.devRef .tc main_arg18) = m ((c : Thread nD τ).loc main_arg18) :=
  (W2_of_ne m ρ c main_arg18 (by decide)).trans (W1_arg18 m ρ c)
theorem W2_arg19 (c : Dev nD) : W2 m ρ c (Proc.devRef .tc main_arg19) = m ((c : Thread nD τ).loc main_arg19) :=
  (W2_of_ne m ρ c main_arg19 (by decide)).trans (W1_arg19 m ρ c)
theorem W2_arg20 (c : Dev nD) : W2 m ρ c (Proc.devRef .tc main_arg20) = m ((c : Thread nD τ).loc main_arg20) :=
  (W2_of_ne m ρ c main_arg20 (by decide)).trans (W1_arg20 m ρ c)
theorem W2_arg21 (c : Dev nD) : W2 m ρ c (Proc.devRef .tc main_arg21) = m ((c : Thread nD τ).loc main_arg21) :=
  (W2_of_ne m ρ c main_arg21 (by decide)).trans (W1_arg21 m ρ c)

theorem W3_arg10 (c : Dev nD) : W3 m ρ c (Proc.devRef .tc main_arg10) = m ((c : Thread nD τ).loc main_arg10) := by
  show StableHlo.after hostOps1 (W2 m ρ c) (Proc.devRef .tc main_arg10) = _
  after_results
  exact W2_arg10 m ρ c
theorem W3_arg11 (c : Dev nD) : W3 m ρ c (Proc.devRef .tc main_arg11) = m ((c : Thread nD τ).loc main_arg11) := by
  show StableHlo.after hostOps1 (W2 m ρ c) (Proc.devRef .tc main_arg11) = _
  after_results
  exact W2_arg11 m ρ c
theorem W3_arg12 (c : Dev nD) : W3 m ρ c (Proc.devRef .tc main_arg12) = m ((c : Thread nD τ).loc main_arg12) := by
  show StableHlo.after hostOps1 (W2 m ρ c) (Proc.devRef .tc main_arg12) = _
  after_results
  exact W2_arg12 m ρ c
theorem W3_arg13 (c : Dev nD) : W3 m ρ c (Proc.devRef .tc main_arg13) = m ((c : Thread nD τ).loc main_arg13) := by
  show StableHlo.after hostOps1 (W2 m ρ c) (Proc.devRef .tc main_arg13) = _
  after_results
  exact W2_arg13 m ρ c
theorem W3_arg14 (c : Dev nD) : W3 m ρ c (Proc.devRef .tc main_arg14) = m ((c : Thread nD τ).loc main_arg14) := by
  show StableHlo.after hostOps1 (W2 m ρ c) (Proc.devRef .tc main_arg14) = _
  after_results
  exact W2_arg14 m ρ c
theorem W3_arg15 (c : Dev nD) : W3 m ρ c (Proc.devRef .tc main_arg15) = m ((c : Thread nD τ).loc main_arg15) := by
  show StableHlo.after hostOps1 (W2 m ρ c) (Proc.devRef .tc main_arg15) = _
  after_results
  exact W2_arg15 m ρ c
theorem W3_arg16 (c : Dev nD) : W3 m ρ c (Proc.devRef .tc main_arg16) = m ((c : Thread nD τ).loc main_arg16) := by
  show StableHlo.after hostOps1 (W2 m ρ c) (Proc.devRef .tc main_arg16) = _
  after_results
  exact W2_arg16 m ρ c
theorem W3_arg17 (c : Dev nD) : W3 m ρ c (Proc.devRef .tc main_arg17) = m ((c : Thread nD τ).loc main_arg17) := by
  show StableHlo.after hostOps1 (W2 m ρ c) (Proc.devRef .tc main_arg17) = _
  after_results
  exact W2_arg17 m ρ c
theorem W3_arg18 (c : Dev nD) : W3 m ρ c (Proc.devRef .tc main_arg18) = m ((c : Thread nD τ).loc main_arg18) := by
  show StableHlo.after hostOps1 (W2 m ρ c) (Proc.devRef .tc main_arg18) = _
  after_results
  exact W2_arg18 m ρ c
theorem W3_arg19 (c : Dev nD) : W3 m ρ c (Proc.devRef .tc main_arg19) = m ((c : Thread nD τ).loc main_arg19) := by
  show StableHlo.after hostOps1 (W2 m ρ c) (Proc.devRef .tc main_arg19) = _
  after_results
  exact W2_arg19 m ρ c
theorem W3_arg20 (c : Dev nD) : W3 m ρ c (Proc.devRef .tc main_arg20) = m ((c : Thread nD τ).loc main_arg20) := by
  show StableHlo.after hostOps1 (W2 m ρ c) (Proc.devRef .tc main_arg20) = _
  after_results
  exact W2_arg20 m ρ c
theorem W3_arg21 (c : Dev nD) : W3 m ρ c (Proc.devRef .tc main_arg21) = m ((c : Thread nD τ).loc main_arg21) := by
  show StableHlo.after hostOps1 (W2 m ρ c) (Proc.devRef .tc main_arg21) = _
  after_results
  exact W2_arg21 m ρ c

theorem W4_arg18 (c : Dev nD) : W4 m ρ c (Proc.devRef .tc main_arg18) = m ((c : Thread nD τ).loc main_arg18) :=
  (W4_of_ne m ρ c main_arg18 (by decide)).trans (W3_arg18 m ρ c)
theorem W4_arg19 (c : Dev nD) : W4 m ρ c (Proc.devRef .tc main_arg19) = m ((c : Thread nD τ).loc main_arg19) :=
  (W4_of_ne m ρ c main_arg19 (by decide)).trans (W3_arg19 m ρ c)
theorem W4_arg20 (c : Dev nD) : W4 m ρ c (Proc.devRef .tc main_arg20) = m ((c : Thread nD τ).loc main_arg20) :=
  (W4_of_ne m ρ c main_arg20 (by decide)).trans (W3_arg20 m ρ c)
theorem W4_arg21 (c : Dev nD) : W4 m ρ c (Proc.devRef .tc main_arg21) = m ((c : Thread nD τ).loc main_arg21) :=
  (W4_of_ne m ρ c main_arg21 (by decide)).trans (W3_arg21 m ρ c)

/-! ## The edge rows and the first neighbour sum, after the first host operations -/

/-- The source row of the edge list, as the first host operations leave it (and as it stays). -/
theorem W2_src (c : Dev nD) : W2 m ρ c (Proc.devRef .tc main_v1) = Cert.ReferenceIdeal.Read.val_main_v1 (F := Ideal) (m ((c : Thread nD τ).loc main_arg1)) :=
  (W2_of_ne m ρ c main_v1 (by decide)).trans (by
    show StableHlo.after hostOps0 (W0 m ρ c) (Proc.devRef .tc main_v1) = _
    after_results
    rfl)

/-- The destination row of the edge list. -/
theorem W2_dst (c : Dev nD) : W2 m ρ c (Proc.devRef .tc main_v3) = Cert.ReferenceIdeal.Read.val_main_v3 (F := Ideal) (m ((c : Thread nD τ).loc main_arg1)) :=
  (W2_of_ne m ρ c main_v3 (by decide)).trans (by
    show StableHlo.after hostOps0 (W0 m ρ c) (Proc.devRef .tc main_v3) = _
    after_results
    rfl)

/-- The first neighbour sum: the features gathered along the source row and added into the destination rows. -/
theorem W1_agg (c : Dev nD) : W1 m ρ c (Proc.devRef .tc main_v13) = Cert.ReferenceIdeal.Read.val_main_v13 (F := Ideal) (m ((c : Thread nD τ).loc main_arg0)) (m ((c : Thread nD τ).loc main_arg1)) := by
  show StableHlo.after hostOps0 (W0 m ρ c) (Proc.devRef .tc main_v13) = _
  after_results
  rfl

/-! ## The three grids' outputs -/

/-- The first layer's output. -/
def h1 (c : Dev nD) : I2 50000 128 → EReal :=
  Conv (m ((c : Thread nD τ).loc main_arg0)) (Cert.ReferenceIdeal.Read.val_main_v13 (F := Ideal) (m ((c : Thread nD τ).loc main_arg0)) (m ((c : Thread nD τ).loc main_arg1))) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

theorem W2_out (c : Dev nD) : W2 m ρ c (Proc.devRef .tc main_v14) = h1 m c := by
  refine (W2_arr m ρ c 10).trans ((final0 (V1 m ρ) c).trans ?_)
  show Conv (W1 m ρ c (Proc.devRef .tc main_arg0)) (W1 m ρ c (Proc.devRef .tc main_v13)) (W1 m ρ c (Proc.devRef .tc main_arg2)) (W1 m ρ c (Proc.devRef .tc main_arg3)) (W1 m ρ c (Proc.devRef .tc main_arg4)) (W1 m ρ c (Proc.devRef .tc main_arg5)) (W1 m ρ c (Proc.devRef .tc main_arg6)) (W1 m ρ c (Proc.devRef .tc main_arg7)) (W1 m ρ c (Proc.devRef .tc main_arg8)) (W1 m ρ c (Proc.devRef .tc main_arg9)) = _
  rw [W1_arg0, W1_agg, W1_arg2, W1_arg3, W1_arg4, W1_arg5, W1_arg6, W1_arg7, W1_arg8, W1_arg9]
  rfl

/-- The first layer's output is still there when the second grid is entered. -/
theorem W3_h1 (c : Dev nD) : W3 m ρ c (Proc.devRef .tc main_v14) = h1 m c := by
  show StableHlo.after hostOps1 (W2 m ρ c) (Proc.devRef .tc main_v14) = _
  after_results
  exact W2_out m ρ c

/-- The second neighbour sum: the same term, of the first layer's output and the same edges. -/
theorem W3_agg (c : Dev nD) : W3 m ρ c (Proc.devRef .tc main_v24) = Cert.ReferenceIdeal.Read.val_main_v13 (F := Ideal) (h1 m c) (m ((c : Thread nD τ).loc main_arg1)) := by
  show StableHlo.after hostOps1 (W2 m ρ c) (Proc.devRef .tc main_v24) = _
  after_results
  rw [W2_src, W2_dst, W2_out]
  rfl

/-- The second layer's output. -/
def h2 (c : Dev nD) : I2 50000 128 → EReal :=
  Conv (h1 m c) (Cert.ReferenceIdeal.Read.val_main_v13 (F := Ideal) (h1 m c) (m ((c : Thread nD τ).loc main_arg1))) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17))

theorem W4_out (c : Dev nD) : W4 m ρ c (Proc.devRef .tc main_v25) = h2 m c := by
  refine (W4_arr m ρ c 10).trans ((final1 (V3 m ρ) c).trans ?_)
  show Conv (W3 m ρ c (Proc.devRef .tc main_v14)) (W3 m ρ c (Proc.devRef .tc main_v24)) (W3 m ρ c (Proc.devRef .tc main_arg10)) (W3 m ρ c (Proc.devRef .tc main_arg11)) (W3 m ρ c (Proc.devRef .tc main_arg12)) (W3 m ρ c (Proc.devRef .tc main_arg13)) (W3 m ρ c (Proc.devRef .tc main_arg14)) (W3 m ρ c (Proc.devRef .tc main_arg15)) (W3 m ρ c (Proc.devRef .tc main_arg16)) (W3 m ρ c (Proc.devRef .tc main_arg17)) = _
  rw [W3_h1, W3_agg, W3_arg10, W3_arg11, W3_arg12, W3_arg13, W3_arg14, W3_arg15, W3_arg16, W3_arg17]
  rfl

/-- The result: the head on the second layer's output. -/
def out (c : Dev nD) : I2 50000 64 → EReal :=
  Head (h2 m c) (m ((c : Thread nD τ).loc main_arg18)) (m ((c : Thread nD τ).loc main_arg19)) (m ((c : Thread nD τ).loc main_arg20)) (m ((c : Thread nD τ).loc main_arg21))

theorem W5_out (c : Dev nD) : W5 m ρ c (Proc.devRef .tc main_v26) = out m c := by
  refine (W5_arr m ρ c 5).trans ((final2 (V4 m ρ) c).trans ?_)
  show Head (W4 m ρ c (Proc.devRef .tc main_v25)) (W4 m ρ c (Proc.devRef .tc main_arg18)) (W4 m ρ c (Proc.devRef .tc main_arg19)) (W4 m ρ c (Proc.devRef .tc main_arg20)) (W4 m ρ c (Proc.devRef .tc main_arg21)) = _
  rw [W4_out, W4_arg18, W4_arg19, W4_arg20, W4_arg21]
  rfl

/-! ## The run, read -/

/-- Every weakly fair execution of the idealized kernel terminates without a fault, its result array at `out` of the
    launch memory and every argument array as launched. -/
theorem run : θ_run defs (onTc (τ := τ) (main (F := Ideal))) ⟨m, fun _ => 0, ρ⟩ (fun r => ∀ c : Dev nD,
      r.2.mem ((c.tc : Thread nD τ).loc main_v26) = out m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  (θ_run defs _ _).mono (fun r h c =>
    ⟨(h c _ (mem_uc main_v26 (by decide))).trans (W5_out m ρ c),
     (h c _ (mem_uc main_arg0 (by decide))).trans (W5_main_arg0 m ρ c),
     (h c _ (mem_uc main_arg1 (by decide))).trans (W5_main_arg1 m ρ c),
     (h c _ (mem_uc main_arg2 (by decide))).trans (W5_main_arg2 m ρ c),
     (h c _ (mem_uc main_arg3 (by decide))).trans (W5_main_arg3 m ρ c),
     (h c _ (mem_uc main_arg4 (by decide))).trans (W5_main_arg4 m ρ c),
     (h c _ (mem_uc main_arg5 (by decide))).trans (W5_main_arg5 m ρ c),
     (h c _ (mem_uc main_arg6 (by decide))).trans (W5_main_arg6 m ρ c),
     (h c _ (mem_uc main_arg7 (by decide))).trans (W5_main_arg7 m ρ c),
     (h c _ (mem_uc main_arg8 (by decide))).trans (W5_main_arg8 m ρ c),
     (h c _ (mem_uc main_arg9 (by decide))).trans (W5_main_arg9 m ρ c),
     (h c _ (mem_uc main_arg10 (by decide))).trans (W5_main_arg10 m ρ c),
     (h c _ (mem_uc main_arg11 (by decide))).trans (W5_main_arg11 m ρ c),
     (h c _ (mem_uc main_arg12 (by decide))).trans (W5_main_arg12 m ρ c),
     (h c _ (mem_uc main_arg13 (by decide))).trans (W5_main_arg13 m ρ c),
     (h c _ (mem_uc main_arg14 (by decide))).trans (W5_main_arg14 m ρ c),
     (h c _ (mem_uc main_arg15 (by decide))).trans (W5_main_arg15 m ρ c),
     (h c _ (mem_uc main_arg16 (by decide))).trans (W5_main_arg16 m ρ c),
     (h c _ (mem_uc main_arg17 (by decide))).trans (W5_main_arg17 m ρ c),
     (h c _ (mem_uc main_arg18 (by decide))).trans (W5_main_arg18 m ρ c),
     (h c _ (mem_uc main_arg19 (by decide))).trans (W5_main_arg19 m ρ c),
     (h c _ (mem_uc main_arg20 (by decide))).trans (W5_main_arg20 m ρ c),
     (h c _ (mem_uc main_arg21 (by decide))).trans (W5_main_arg21 m ρ c)⟩)
    (Cert.KernelRun.run_last m ρ)

end Cert.KernelValue

end
-- ==== Proof.RefRows.lean ====
/-
  The reference program, read one node at a time.

  Each stage of the reference acts row by row once the two neighbour sums are taken as given arrays: a stage's element
  at (r, j) depends only on row r of its operand. Reading the stages at an index (r, j), the first layer's output is the
  map convRow applied to the row x(r, ·) + agg(r, ·), the second layer's is the same map applied to the first layer's
  output, and the head is headRow. The reference forms h · Wᵀ through a transposed copy of W, so the summand of its
  contraction at (r, j) is h(r, k) · W(j, k): the weight matrix is read output-major, as in dense.
-/
import proofs.«129006_j75204877353218_1_alg».proof.Proof.Gen.ReferenceIdeal.Read
import proofs.«129006_j75204877353218_1_alg».proof.Proof.Rows

noncomputable section

namespace Cert.RefRows

open Cert.ReferenceIdeal Cert.ReferenceIdeal.Read Cert.Rows Idealize.ShloMosaic Idealize.ShloMosaic.ValueIdx

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 x4 x5 x6 x7 : (⟨S128, .f32⟩ : BufTy).Contents (Elt Ideal))
  (x8 : (⟨S128x128, .f32⟩ : BufTy).Contents (Elt Ideal)) (x9 : (⟨S128, .f32⟩ : BufTy).Contents (Elt Ideal))
  (x10 : (⟨S128x128, .f32⟩ : BufTy).Contents (Elt Ideal)) (x11 x12 x13 x14 x15 : (⟨S128, .f32⟩ : BufTy).Contents (Elt Ideal))
  (x16 : (⟨S128x128, .f32⟩ : BufTy).Contents (Elt Ideal)) (x17 : (⟨S128, .f32⟩ : BufTy).Contents (Elt Ideal))
  (x18 : (⟨S128x128, .f32⟩ : BufTy).Contents (Elt Ideal)) (x19 : (⟨S128, .f32⟩ : BufTy).Contents (Elt Ideal))
  (x20 : (⟨S64x128, .f32⟩ : BufTy).Contents (Elt Ideal)) (x21 : (⟨S64, .f32⟩ : BufTy).Contents (Elt Ideal))

/-! ## The first layer -/

/-- The first bias, broadcast along the rows, read at (r, j) is its entry j. -/
theorem l1_ba (r : Fin 50000) (j : Fin 128) : val_main_v18 (F := Ideal) x3 (ix2 r j) = x3 (ix1 j) := by
  rw [val_main_v18_apply, val_main_v17_apply]
  exact congrArg x3 (funext fun a => Fin.ext (by match a with | ⟨0, _⟩ => rfl))

/-- The running mean, broadcast along the rows, read at (r, j) is its entry j. -/
theorem l1_rm (r : Fin 50000) (j : Fin 128) : val_main_v21 (F := Ideal) x6 (ix2 r j) = x6 (ix1 j) := by
  rw [val_main_v21_apply, val_main_v20_apply]
  exact congrArg x6 (funext fun a => Fin.ext (by match a with | ⟨0, _⟩ => rfl))

/-- The scale, broadcast along the rows, read at (r, j) is its entry j. -/
theorem l1_g (r : Fin 50000) (j : Fin 128) : val_main_v30 (F := Ideal) x4 (ix2 r j) = x4 (ix1 j) := by
  rw [val_main_v30_apply, val_main_v29_apply]
  exact congrArg x4 (funext fun a => Fin.ext (by match a with | ⟨0, _⟩ => rfl))

/-- The shift, broadcast along the rows, read at (r, j) is its entry j. -/
theorem l1_be (r : Fin 50000) (j : Fin 128) : val_main_v33 (F := Ideal) x5 (ix2 r j) = x5 (ix1 j) := by
  rw [val_main_v33_apply, val_main_v32_apply]
  exact congrArg x5 (funext fun a => Fin.ext (by match a with | ⟨0, _⟩ => rfl))

/-- The second bias, broadcast along the rows, read at (r, j) is its entry j. -/
theorem l1_bb (r : Fin 50000) (j : Fin 128) : val_main_v39 (F := Ideal) x9 (ix2 r j) = x9 (ix1 j) := by
  rw [val_main_v39_apply, val_main_v38_apply]
  exact congrArg x9 (funext fun a => Fin.ext (by match a with | ⟨0, _⟩ => rfl))

/-- The inverse standard deviation, computed once per feature and broadcast along the rows, read at (r, j) is
    (rv j + ε)^(-1/2). -/
theorem l1_rs (r : Fin 50000) (j : Fin 128) :
    val_main_v27 (F := Ideal) x7 (ix2 r j) = Ideal.rsqrt (x7 (ix1 j) + varEps) := by
  have h : idx_main_v26 (idx_main_v27 (ix2 r j)) = ix1 j :=
    funext fun a => Fin.ext (by match a with | ⟨0, _⟩ => rfl)
  rw [val_main_v27_apply, val_main_v26_apply, h, val_main_v25_apply, val_main_v24_apply, val_main_v23_apply,
    val_main_cst_1_apply, Ideal.hostUnary_rsqrt_def, Ideal.addf_def, Ideal.ofBits_def]

/-- The first rectifier's floor, a broadcast constant, is the zero word's value at every index. -/
theorem l1_z0 (i : S50000x128.Idx) : val_main_call0_v0 (F := Ideal) i = floor0 := by
  rw [val_main_call0_v0_apply, val_main_call0_cst_apply, Ideal.ofBits_def]

/-- The second rectifier's floor likewise. -/
theorem l1_z1 (i : S50000x128.Idx) : val_main_call1_v0 (F := Ideal) i = floor0 := by
  rw [val_main_call1_v0_apply, val_main_call1_cst_apply, Ideal.ofBits_def]

/-- The first dense layer at (r, j): the contraction pairs row r of the summed input at k with the transposed
    weights at (k, j), which is the weight matrix at (j, k); then the bias at j is added. -/
theorem l1_dA (r : Fin 50000) (j : Fin 128) :
    val_main_v19 (F := Ideal) x0 x1 x2 x3 (ix2 r j)
      = dense (fun k => x0 (ix2 r k) + val_main_v13 (F := Ideal) x0 x1 (ix2 r k)) x2 x3 j := by
  rw [val_main_v19_apply, val_main_v16_apply, l1_ba, Ideal.addf_def]
  unfold dense
  refine congrArg (fun s : EReal => s + x3 (ix1 j)) (Finset.sum_congr rfl fun k _ => ?_)
  have hl : lidx_main_v16 (ix2 r j) k = ix2 r k :=
    funext fun a => Fin.ext (by match a with | ⟨0, _⟩ => rfl | ⟨1, _⟩ => rfl)
  have hr : idx_main_v15 (ridx_main_v16 (ix2 r j) k) = ix2 j k :=
    funext fun a => Fin.ext (by match a with | ⟨0, _⟩ => rfl | ⟨1, _⟩ => rfl)
  rw [hl, val_main_v15_apply, hr, val_main_v14_apply, Ideal.addf_def]

/-- The normalised, rectified first half at (r, j): subtract the mean, multiply by the inverse standard deviation,
    then by the scale, add the shift, and take the maximum with zero, in that order. -/
theorem l1_mid (r : Fin 50000) (j : Fin 128) :
    val_main_v35 (F := Ideal) x0 x1 x2 x3 x4 x5 x6 x7 (ix2 r j)
      = mid (fun k => x0 (ix2 r k) + val_main_v13 (F := Ideal) x0 x1 (ix2 r k)) x2 x3 x4 x5 x6 x7 j := by
  rw [val_main_v35_apply, val_main_v34_apply, val_main_v31_apply, val_main_v28_apply, val_main_v22_apply,
    l1_dA, l1_rm, l1_rs, l1_g, l1_be, l1_z0]
  rfl

/-- The first layer's output is the layer map applied to every row of x plus the first neighbour sum. -/
theorem layer1 : val_main_v41 (F := Ideal) x0 x1 x2 x3 x4 x5 x6 x7 x8 x9
    = Conv x0 (val_main_v13 (F := Ideal) x0 x1) x2 x3 x4 x5 x6 x7 x8 x9 := by
  funext i
  obtain ⟨r, q, rfl⟩ : ∃ (r : Fin 50000) (q : Fin 128), i = ix2 r q := ⟨i 0, i 1, eq_ix2 i⟩
  rw [Conv_apply, val_main_v41_apply, val_main_v40_apply, val_main_v37_apply, l1_bb, l1_z1,
    Ideal.maximumf_def, Ideal.addf_def]
  unfold convRow dense
  refine congrArg (fun s : EReal => max (s + x9 (ix1 q)) floor0) (Finset.sum_congr rfl fun k _ => ?_)
  have hl : lidx_main_v37 (ix2 r q) k = ix2 r k :=
    funext fun a => Fin.ext (by match a with | ⟨0, _⟩ => rfl | ⟨1, _⟩ => rfl)
  have hr : idx_main_v36 (ridx_main_v37 (ix2 r q) k) = ix2 q k :=
    funext fun a => Fin.ext (by match a with | ⟨0, _⟩ => rfl | ⟨1, _⟩ => rfl)
  rw [hl, l1_mid, val_main_v36_apply, hr]

/-! ## The second layer -/

/-- The first bias, broadcast along the rows, read at (r, j) is its entry j. -/
theorem l2_ba (r : Fin 50000) (j : Fin 128) : val_main_v56 (F := Ideal) x11 (ix2 r j) = x11 (ix1 j) := by
  rw [val_main_v56_apply, val_main_v55_apply]
  exact congrArg x11 (funext fun a => Fin.ext (by match a with | ⟨0, _⟩ => rfl))

/-- The running mean, broadcast along the rows, read at (r, j) is its entry j. -/
theorem l2_rm (r : Fin 50000) (j : Fin 128) : val_main_v59 (F := Ideal) x14 (ix2 r j) = x14 (ix1 j) := by
  rw [val_main_v59_apply, val_main_v58_apply]
  exact congrArg x14 (funext fun a => Fin.ext (by match a with | ⟨0, _⟩ => rfl))

/-- The scale, broadcast along the rows, read at (r, j) is its entry j. -/
theorem l2_g (r : Fin 50000) (j : Fin 128) : val_main_v68 (F := Ideal) x12 (ix2 r j) = x12 (ix1 j) := by
  rw [val_main_v68_apply, val_main_v67_apply]
  exact congrArg x12 (funext fun a => Fin.ext (by match a with | ⟨0, _⟩ => rfl))

/-- The shift, broadcast along the rows, read at (r, j) is its entry j. -/
theorem l2_be (r : Fin 50000) (j : Fin 128) : val_main_v71 (F := Ideal) x13 (ix2 r j) = x13 (ix1 j) := by
  rw [val_main_v71_apply, val_main_v70_apply]
  exact congrArg x13 (funext fun a => Fin.ext (by match a with | ⟨0, _⟩ => rfl))

/-- The second bias, broadcast along the rows, read at (r, j) is its entry j. -/
theorem l2_bb (r : Fin 50000) (j : Fin 128) : val_main_v77 (F := Ideal) x17 (ix2 r j) = x17 (ix1 j) := by
  rw [val_main_v77_apply, val_main_v76_apply]
  exact congrArg x17 (funext fun a => Fin.ext (by match a with | ⟨0, _⟩ => rfl))

/-- The inverse standard deviation, computed once per feature and broadcast along the rows, read at (r, j) is
    (rv j + ε)^(-1/2). -/
theorem l2_rs (r : Fin 50000) (j : Fin 128) :
    val_main_v65 (F := Ideal) x15 (ix2 r j) = Ideal.rsqrt (x15 (ix1 j) + varEps) := by
  have h : idx_main_v64 (idx_main_v65 (ix2 r j)) = ix1 j :=
    funext fun a => Fin.ext (by match a with | ⟨0, _⟩ => rfl)
  rw [val_main_v65_apply, val_main_v64_apply, h, val_main_v63_apply, val_main_v62_apply, val_main_v61_apply,
    val_main_cst_5_apply, Ideal.hostUnary_rsqrt_def, Ideal.addf_def, Ideal.ofBits_def]

/-- The first rectifier's floor, a broadcast constant, is the zero word's value at every index. -/
theorem l2_z0 (i : S50000x128.Idx) : val_main_call2_v0 (F := Ideal) i = floor0 := by
  rw [val_main_call2_v0_apply, val_main_call2_cst_apply, Ideal.ofBits_def]

/-- The second rectifier's floor likewise. -/
theorem l2_z1 (i : S50000x128.Idx) : val_main_call3_v0 (F := Ideal) i = floor0 := by
  rw [val_main_call3_v0_apply, val_main_call3_cst_apply, Ideal.ofBits_def]

/-- The first dense layer at (r, j): the contraction pairs row r of the summed input at k with the transposed
    weights at (k, j), which is the weight matrix at (j, k); then the bias at j is added. -/
theorem l2_dA (r : Fin 50000) (j : Fin 128) :
    val_main_v57 (F := Ideal) x0 x1 x2 x3 x4 x5 x6 x7 x8 x9 x10 x11 (ix2 r j)
      = dense (fun k => val_main_v41 (F := Ideal) x0 x1 x2 x3 x4 x5 x6 x7 x8 x9 (ix2 r k)
        + val_main_v51 (F := Ideal) x0 x1 x2 x3 x4 x5 x6 x7 x8 x9 (ix2 r k)) x10 x11 j := by
  rw [val_main_v57_apply, val_main_v54_apply, l2_ba, Ideal.addf_def]
  unfold dense
  refine congrArg (fun s : EReal => s + x11 (ix1 j)) (Finset.sum_congr rfl fun k _ => ?_)
  have hl : lidx_main_v54 (ix2 r j) k = ix2 r k :=
    funext fun a => Fin.ext (by match a with | ⟨0, _⟩ => rfl | ⟨1, _⟩ => rfl)
  have hr : idx_main_v53 (ridx_main_v54 (ix2 r j) k) = ix2 j k :=
    funext fun a => Fin.ext (by match a with | ⟨0, _⟩ => rfl | ⟨1, _⟩ => rfl)
  rw [hl, val_main_v53_apply, hr, val_main_v52_apply, Ideal.addf_def]

/-- The normalised, rectified first half at (r, j): subtract the mean, multiply by the inverse standard deviation,
    then by the scale, add the shift, and take the maximum with zero, in that order. -/
theorem l2_mid (r : Fin 50000) (j : Fin 128) :
    val_main_v73 (F := Ideal) x0 x1 x2 x3 x4 x5 x6 x7 x8 x9 x10 x11 x12 x13 x14 x15 (ix2 r j)
      = mid (fun k => val_main_v41 (F := Ideal) x0 x1 x2 x3 x4 x5 x6 x7 x8 x9 (ix2 r k)
        + val_main_v51 (F := Ideal) x0 x1 x2 x3 x4 x5 x6 x7 x8 x9 (ix2 r k)) x10 x11 x12 x13 x14 x15 j := by
  rw [val_main_v73_apply, val_main_v72_apply, val_main_v69_apply, val_main_v66_apply, val_main_v60_apply,
    l2_dA, l2_rm, l2_rs, l2_g, l2_be, l2_z0]
  rfl

/-- The second layer's output is the same layer map, with the second set of parameters, applied to every row of the
    first layer's output plus the second neighbour sum. -/
theorem layer2 : val_main_v79 (F := Ideal) x0 x1 x2 x3 x4 x5 x6 x7 x8 x9 x10 x11 x12 x13 x14 x15 x16 x17
    = Conv (val_main_v41 (F := Ideal) x0 x1 x2 x3 x4 x5 x6 x7 x8 x9) (val_main_v51 (F := Ideal) x0 x1 x2 x3 x4 x5 x6 x7 x8 x9)
        x10 x11 x12 x13 x14 x15 x16 x17 := by
  funext i
  obtain ⟨r, q, rfl⟩ : ∃ (r : Fin 50000) (q : Fin 128), i = ix2 r q := ⟨i 0, i 1, eq_ix2 i⟩
  rw [Conv_apply, val_main_v79_apply, val_main_v78_apply, val_main_v75_apply, l2_bb, l2_z1,
    Ideal.maximumf_def, Ideal.addf_def]
  unfold convRow dense
  refine congrArg (fun s : EReal => max (s + x17 (ix1 q)) floor0) (Finset.sum_congr rfl fun k _ => ?_)
  have hl : lidx_main_v75 (ix2 r q) k = ix2 r k :=
    funext fun a => Fin.ext (by match a with | ⟨0, _⟩ => rfl | ⟨1, _⟩ => rfl)
  have hr : idx_main_v74 (ridx_main_v75 (ix2 r q) k) = ix2 q k :=
    funext fun a => Fin.ext (by match a with | ⟨0, _⟩ => rfl | ⟨1, _⟩ => rfl)
  rw [hl, l2_mid, val_main_v74_apply, hr]

/-! ## The head -/

/-- The head's first bias, broadcast along the rows, read at (r, j) is its entry j. -/
theorem hd_b1 (r : Fin 50000) (j : Fin 128) : val_main_v83 (F := Ideal) x19 (ix2 r j) = x19 (ix1 j) := by
  rw [val_main_v83_apply, val_main_v82_apply]
  exact congrArg x19 (funext fun a => Fin.ext (by match a with | ⟨0, _⟩ => rfl))

/-- The head's second bias, broadcast along the rows of the 64-column output, read at (r, q) is its entry q. -/
theorem hd_b2 (r : Fin 50000) (q : Fin 64) : val_main_v89 (F := Ideal) x21 (ix2 r q) = x21 (ix1 q) := by
  rw [val_main_v89_apply, val_main_v88_apply]
  exact congrArg x21 (funext fun a => Fin.ext (by match a with | ⟨0, _⟩ => rfl))

/-- The head's rectifier floor is the zero word's value at every index. -/
theorem hd_z (i : S50000x128.Idx) : val_main_call4_v0 (F := Ideal) i = floor0 := by
  rw [val_main_call4_v0_apply, val_main_call4_cst_apply, Ideal.ofBits_def]

/-- The head's rectified first dense layer at (r, j): row r of the second layer's output against row j of the
    first head matrix, plus the bias at j, then the maximum with zero. -/
theorem hd_relu (r : Fin 50000) (j : Fin 128) :
    val_main_v85 (F := Ideal) x0 x1 x2 x3 x4 x5 x6 x7 x8 x9 x10 x11 x12 x13 x14 x15 x16 x17 x18 x19 (ix2 r j)
      = max (dense (fun k => val_main_v79 (F := Ideal) x0 x1 x2 x3 x4 x5 x6 x7 x8 x9 x10 x11 x12 x13 x14 x15 x16 x17 (ix2 r k)) x18 x19 j) floor0 := by
  rw [val_main_v85_apply, val_main_v84_apply, val_main_v81_apply, hd_b1, hd_z, Ideal.maximumf_def, Ideal.addf_def]
  unfold dense
  refine congrArg (fun s : EReal => max (s + x19 (ix1 j)) floor0) (Finset.sum_congr rfl fun k _ => ?_)
  have hl : lidx_main_v81 (ix2 r j) k = ix2 r k :=
    funext fun a => Fin.ext (by match a with | ⟨0, _⟩ => rfl | ⟨1, _⟩ => rfl)
  have hr : idx_main_v80 (ridx_main_v81 (ix2 r j) k) = ix2 j k :=
    funext fun a => Fin.ext (by match a with | ⟨0, _⟩ => rfl | ⟨1, _⟩ => rfl)
  rw [hl, val_main_v80_apply, hr]

/-- The network's output is the head map applied to every row of the second layer's output: the second head matrix
    has 64 rows, and its transposed copy read at (k, q) is the matrix at (q, k). -/
theorem head : val_main_v90 (F := Ideal) x0 x1 x2 x3 x4 x5 x6 x7 x8 x9 x10 x11 x12 x13 x14 x15 x16 x17 x18 x19 x20 x21
    = Head (val_main_v79 (F := Ideal) x0 x1 x2 x3 x4 x5 x6 x7 x8 x9 x10 x11 x12 x13 x14 x15 x16 x17) x18 x19 x20 x21 := by
  funext i
  obtain ⟨r, q, rfl⟩ : ∃ (r : Fin 50000) (q : Fin 64), i = ix2 r q := ⟨i 0, i 1, eq_ix2 i⟩
  rw [Head_apply, val_main_v90_apply, val_main_v87_apply, hd_b2, Ideal.addf_def]
  unfold headRow dense
  refine congrArg (fun s : EReal => s + x21 (ix1 q)) (Finset.sum_congr rfl fun k _ => ?_)
  have hl : lidx_main_v87 (ix2 r q) k = ix2 r k :=
    funext fun a => Fin.ext (by match a with | ⟨0, _⟩ => rfl | ⟨1, _⟩ => rfl)
  have hr : idx_main_v86 (ridx_main_v87 (ix2 r q) k) = ix2 q k :=
    funext fun a => Fin.ext (by match a with | ⟨0, _⟩ => rfl | ⟨1, _⟩ => rfl)
  rw [hl, hd_relu, val_main_v86_apply, hr]
  rfl

/-! ## The second neighbour sum -/

/-- The second neighbour sum is the first one's expression with the first layer's output in place of x: both gather
    rows at the same wrapped source indices and add them into a zero array at the same destination indices. -/
theorem agg2 : val_main_v51 (F := Ideal) x0 x1 x2 x3 x4 x5 x6 x7 x8 x9
    = val_main_v13 (F := Ideal) (val_main_v41 (F := Ideal) x0 x1 x2 x3 x4 x5 x6 x7 x8 x9) x1 := rfl

end Cert.RefRows

end
-- ==== Proof.lean ====
/-
  A graph network — two convolution layers and a dense head over 50000 nodes with 128 features — computed by three
  row-blocked grids with the neighbour sums on the host between them, against the same network written as whole-array
  operations.

  Over the extended reals the two programs are one function of their arguments. After a neighbour sum, every operation of a
  layer acts on one node's feature row: a dense layer `h · Wᵀ + b`, the normalisation with the running statistics, a
  rectifier, a second dense layer, a second rectifier; the head is two dense layers with a rectifier between. The kernel
  applies these to blocks of 5000 rows, its matrix unit's product into a zero accumulator being the plain sum over the
  contracted features and its changes of float format the identity; the reference applies them to all rows at once, its
  matrix product against the transposed weight the same sum. The neighbour sum (gather the source rows, add them into the
  destination rows) is the same term of the same operands on both sides and is never opened. The only law used to join
  the two sides is that a row of a product is the product of the row, so no finiteness of the inputs is needed and the
  precondition is not opened.

  Proof/Rows.lean states the row functions and their whole-array forms. On the kernel's side Proof/KernelRows.lean reads each
  body at an entry of its block, Proof/KernelBlocks.lean passes from the blocks a grid writes back to the array it leaves,
  Proof/KernelRun.lean is the run with its last memory named, and Proof/KernelValue.lean reads that memory back through the
  program to the launch memory. On the reference's side Proof/RefRows.lean reads its stages at an index. The three frames are
  the programs' runs with the result dropped; nothing was rewritten in idealizing the kernel, so there is nothing to
  preserve.
-/
import proofs.«129006_j75204877353218_1_alg».proof.Defs
import proofs.«129006_j75204877353218_1_alg».proof.Proof.Gen.Kernel
import proofs.«129006_j75204877353218_1_alg».proof.Proof.Gen.Kernel.Frame
import proofs.«129006_j75204877353218_1_alg».proof.Proof.Gen.KernelIdeal
import proofs.«129006_j75204877353218_1_alg».proof.Proof.Gen.KernelIdeal.Frame
import proofs.«129006_j75204877353218_1_alg».proof.Proof.Gen.ReferenceIdeal
import proofs.«129006_j75204877353218_1_alg».proof.Proof.Gen.ReferenceIdeal.Run
import proofs.«129006_j75204877353218_1_alg».proof.Proof.Gen.ReferenceIdeal.Read
import proofs.«129006_j75204877353218_1_alg».proof.Proof.Gen.Pre_finite_inputs
import proofs.«129006_j75204877353218_1_alg».proof.Proof.KernelValue
import proofs.«129006_j75204877353218_1_alg».proof.Proof.RefRows
import Idealize.ShloMosaic.Adequacy
import Idealize.ShloMosaic.Init

noncomputable section

namespace Cert.Proof

open Idealize.ShloMosaic Idealize.SL.Sem Cert.Rows

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- Idealizing the kernel rewrote no operation. -/
theorem preserves : Cert.preserves_Kernel_KernelIdeal := trivial

/-- The reference's result as one function of its arguments: the head on the second layer's output, that layer on the first
    layer's output and its neighbour sum, the first layer on the features and theirs. -/
theorem ref_result (x0 : (⟨Cert.ReferenceIdeal.S50000x128, .f32⟩ : BufTy).Contents (Elt Ideal)) (x1 : (⟨Cert.ReferenceIdeal.S2x800000, .i32⟩ : BufTy).Contents (Elt Ideal)) (x2 : (⟨Cert.ReferenceIdeal.S128x128, .f32⟩ : BufTy).Contents (Elt Ideal)) (x3 x4 x5 x6 x7 : (⟨Cert.ReferenceIdeal.S128, .f32⟩ : BufTy).Contents (Elt Ideal)) (x8 : (⟨Cert.ReferenceIdeal.S128x128, .f32⟩ : BufTy).Contents (Elt Ideal)) (x9 : (⟨Cert.ReferenceIdeal.S128, .f32⟩ : BufTy).Contents (Elt Ideal)) (x10 : (⟨Cert.ReferenceIdeal.S128x128, .f32⟩ : BufTy).Contents (Elt Ideal)) (x11 x12 x13 x14 x15 : (⟨Cert.ReferenceIdeal.S128, .f32⟩ : BufTy).Contents (Elt Ideal)) (x16 : (⟨Cert.ReferenceIdeal.S128x128, .f32⟩ : BufTy).Contents (Elt Ideal)) (x17 : (⟨Cert.ReferenceIdeal.S128, .f32⟩ : BufTy).Contents (Elt Ideal)) (x18 : (⟨Cert.ReferenceIdeal.S128x128, .f32⟩ : BufTy).Contents (Elt Ideal)) (x19 : (⟨Cert.ReferenceIdeal.S128, .f32⟩ : BufTy).Contents (Elt Ideal)) (x20 : (⟨Cert.ReferenceIdeal.S64x128, .f32⟩ : BufTy).Contents (Elt Ideal)) (x21 : (⟨Cert.ReferenceIdeal.S64, .f32⟩ : BufTy).Contents (Elt Ideal)) :
    Cert.ReferenceIdeal.Read.val_main_v90 (F := Ideal) x0 x1 x2 x3 x4 x5 x6 x7 x8 x9 x10 x11 x12 x13 x14 x15 x16 x17 x18 x19 x20 x21
      = Head (Conv (Conv x0 (Cert.ReferenceIdeal.Read.val_main_v13 (F := Ideal) x0 x1) x2 x3 x4 x5 x6 x7 x8 x9)
            (Cert.ReferenceIdeal.Read.val_main_v13 (F := Ideal) (Conv x0 (Cert.ReferenceIdeal.Read.val_main_v13 (F := Ideal) x0 x1) x2 x3 x4 x5 x6 x7 x8 x9) x1)
            x10 x11 x12 x13 x14 x15 x16 x17) x18 x19 x20 x21 := by
  rw [Cert.RefRows.head, Cert.RefRows.layer2, Cert.RefRows.agg2, Cert.RefRows.layer1]

/-- From memories that agree on the arguments both programs run to the end, and their result arrays are the same function
    of the arguments, entry by entry. -/
theorem algebraic : Cert.algebraic_KernelIdeal_ReferenceIdeal := by
  intro m ρ m' ρ' _ hagree
  refine ⟨fun c => Cert.KernelValue.out m c, Cert.KernelValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13, a14, a15, a16, a17, a18, a19, a20, a21⟩ := hagree c
  rw [Cert.ReferenceIdeal.Read.val_main_v90_eq, a0, a1, a2, a3, a4, a5, a6, a7, a8, a9, a10, a11, a12, a13, a14, a15, a16, a17, a18, a19, a20, a21, ref_result]
  rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
